-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_arg10 : FVec F S128x40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  main_v48

def fn_part1 {F : FTy → Type} [FloatOps F] (main_arg5 : FVec F S64x128 .f32) (main_arg6 : FVec F S128 .f32) (main_arg7 : FVec F S64x128 .f32) (main_arg8 : FVec F S128x40 .f32) (main_arg9 : FVec F S40 .f32) (main_arg10 : FVec F S128x40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x128 .f32) (main_arg6 : FVec F S128 .f32) (main_arg7 : FVec F S64x128 .f32) (main_arg8 : FVec F S128x40 .f32) (main_arg9 : FVec F S40 .f32) (main_arg10 : FVec F S128x40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S1x128 : Shape := ⟨2, ![1, 128]⟩
abbrev S100000x128 : Shape := ⟨2, ![100000, 128]⟩
abbrev S5000x128 : Shape := ⟨2, ![5000, 128]⟩
abbrev S1600000x128 : Shape := ⟨2, ![1600000, 128]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 79
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x128, .f32⟩
  | .hbm, ⟨6, _⟩ => ⟨S128, .f32⟩
  | .hbm, ⟨7, _⟩ => ⟨S64x128, .f32⟩
  | .hbm, ⟨8, _⟩ => ⟨S128x40, .f32⟩
  | .hbm, ⟨9, _⟩ => ⟨S40, .f32⟩
  | .hbm, ⟨10, _⟩ => ⟨S128x40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S1x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x40, .f32⟩
  | .hbm, ⟨78, _⟩ => ⟨S100000x40, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x128, .f32⟩
  | .local _ .vmem, ⟨14, _⟩ => ⟨S1x128, .f32⟩
  | .local _ .vmem, ⟨15, _⟩ => ⟨S64x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x40, .f32⟩
  | .local _ .vmem, ⟨23, _⟩ => ⟨S1x40, .f32⟩
  | .local _ .vmem, ⟨24, _⟩ => ⟨S128x40, .f32⟩
  | .local _ .vmem, ⟨25, _⟩ => ⟨S5000x40, .f32⟩
  | .local _ .vmem, ⟨26, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S40_S1x40 : S40.ShapeCasts S1x40
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x40.size a ≤ S128x40.size a
  hwx2_4 : ∀ i : grid2.Coords, EltTy.bits .f32 = 32 ∨ (Rect.block (s := S128x40) S128x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S100000x40.size a
  hwx2_5 : ∀ i : grid2.Coords, EltTy.bits .f32 = 32 ∨ (Rect.block (s := S100000x40) S5000x40.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x128 : Shape := ⟨2, ![100000, 128]⟩
abbrev S1x128 : Shape := ⟨2, ![1, 128]⟩
abbrev S1600000x128 : Shape := ⟨2, ![1600000, 128]⟩
abbrev S100000x40 : Shape := ⟨2, ![100000, 40]⟩
abbrev S1x40 : Shape := ⟨2, ![1, 40]⟩
abbrev S100000 : Shape := ⟨1, ![100000]⟩

abbrev nBuf : Space → Nat
  | .hbm => 126
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x128, .f32⟩
  | .hbm, ⟨6, _⟩ => ⟨S128, .f32⟩
  | .hbm, ⟨7, _⟩ => ⟨S64x128, .f32⟩
  | .hbm, ⟨8, _⟩ => ⟨S128x40, .f32⟩
  | .hbm, ⟨9, _⟩ => ⟨S40, .f32⟩
  | .hbm, ⟨10, _⟩ => ⟨S128x40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S_, .f32⟩
  | .hbm, ⟨29, _⟩ => ⟨S1600000x1, .f32⟩
  | .hbm, ⟨30, _⟩ => ⟨S_, .f32⟩
  | .hbm, ⟨31, _⟩ => ⟨S100000x1, .f32⟩
  | .hbm, ⟨32, _⟩ => ⟨S1600000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000x1, .f32⟩
  | .hbm, ⟨63, _⟩ => ⟨S_, .f32⟩
  | .hbm, ⟨64, _⟩ => ⟨S100000x1, .f32⟩
  | .hbm, ⟨65, _⟩ => ⟨S1600000x1, .i32⟩
  | .hbm, ⟨66, _⟩ => ⟨S100000x1, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x64, .f32⟩
  | .hbm, ⟨71, _⟩ => ⟨S100000x64, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x128, .f32⟩
  | .hbm, ⟨90, _⟩ => ⟨S_, .f32⟩
  | .hbm, ⟨91, _⟩ => ⟨S100000x128, .f32⟩
  | .hbm, ⟨92, _⟩ => ⟨S1600000x1, .i32⟩
  | .hbm, ⟨93, _⟩ => ⟨S100000x128, .f32⟩
  | .hbm, ⟨94, _⟩ => ⟨S_, .f32⟩
  | .hbm, ⟨95, _⟩ => ⟨S1600000x1, .f32⟩
  | .hbm, ⟨96, _⟩ => ⟨S_, .f32⟩
  | .hbm, ⟨97, _⟩ => ⟨S100000x1, .f32⟩
  | .hbm, ⟨98, _⟩ => ⟨S1600000x1, .i32⟩
  | .hbm, ⟨99, _⟩ => ⟨S100000x1, .f32⟩
  | .hbm, ⟨100, _⟩ => ⟨S_, .f32⟩
  | .hbm, ⟨101, _⟩ => ⟨S100000x1, .f32⟩
  | .hbm, ⟨102, _⟩ => ⟨S100000x1, .f32⟩
  | .hbm, ⟨103, _⟩ => ⟨S100000x128, .f32⟩
  | .hbm, ⟨104, _⟩ => ⟨S100000x128, .f32⟩
  | .hbm, ⟨105, _⟩ => ⟨S100000x40, .f32⟩
  | .hbm, ⟨106, _⟩ => ⟨S1x40, .f32⟩
  | .hbm, ⟨107, _⟩ => ⟨S100000x40, .f32⟩
  | .hbm, ⟨108, _⟩ => ⟨S100000x40, .f32⟩
  | .hbm, ⟨109, _⟩ => ⟨S100000x40, .f32⟩
  | .hbm, ⟨110, _⟩ => ⟨S100000x40, .f32⟩
  | .hbm, ⟨111, _⟩ => ⟨S_, .f32⟩
  | .hbm, ⟨112, _⟩ => ⟨S100000, .f32⟩
  | .hbm, ⟨113, _⟩ => ⟨S_, .f32⟩
  | .hbm, ⟨114, _⟩ => ⟨S100000, .f32⟩
  | .hbm, ⟨115, _⟩ => ⟨S100000, .f32⟩
  | .hbm, ⟨116, _⟩ => ⟨S100000x1, .f32⟩
  | .hbm, ⟨117, _⟩ => ⟨S100000x40, .f32⟩
  | .hbm, ⟨118, _⟩ => ⟨S100000x40, .f32⟩
  | .hbm, ⟨119, _⟩ => ⟨S100000x40, .f32⟩
  | .hbm, ⟨120, _⟩ => ⟨S_, .f32⟩
  | .hbm, ⟨121, _⟩ => ⟨S100000, .f32⟩
  | .hbm, ⟨122, _⟩ => ⟨S100000x1, .f32⟩
  | .hbm, ⟨123, _⟩ => ⟨S100000x1, .f32⟩
  | .hbm, ⟨124, _⟩ => ⟨S100000x40, .f32⟩
  | .hbm, ⟨125, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_call2_cst : Ref sig .tc := ⟨.hbm, 111, rfl⟩
abbrev main_call2_v0 : Ref sig .tc := ⟨.hbm, 112, rfl⟩
abbrev main_call2_cst_0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_cst_1 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_v78 : Ref sig .tc := ⟨.hbm, 125, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x64_S100000x64_1_0_0_1_n_n_wf : DotDims.WF S100000x64 S64x64 S100000x64 [1] [0] [0] [1] [] []
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel's run with its result named.  The program is three tiled layers among stretches of host
  operations; the buffer contents at the end of the run are the fold `W6` of those six segments over the launch
  memory.  The run below is the kernel's frame run with one more thing read off its last state: besides the eleven
  argument arrays (unchanged), the result array, which holds `W6` at its buffer.  What `W6` holds there — the third
  layer's tiles, joined — is the business of the value modules.
-/
import proofs.«180650_j13683765805695_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting; the result array ends at the
    last boundary's contents `W6` and the argument arrays as launched. -/
theorem run_named : θ_run defs (onTc (τ := τ) (main (F := F))) ⟨m, fun _ => 0, ρ⟩ (fun r => ∀ c : Dev nD,
      r.2.mem ((c.tc : Thread nD τ).loc main_v54) = W6 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v54 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Named

end
-- ==== Proof.LibPlainDot.lean ====
/-
  A plain matrix product read at an index, at the ideal instance (floats are extended reals, every operation exact),
  free of any program.

  For the dimension numbers of an `M×K` by `K×N` product with no batch axis (`DotDims.plain M K N`: the left operand
  contracted on its second axis, the right on its first), both a kernel's matrix-unit product into a zero accumulator
  and a host `dot_general` hold, at `(p, q)`, the sum over `k` of `l (p, k) · r (k, q)`: no rounding, no order of
  accumulation, no tile shape is left in either.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat}

/-- The left operand's row is the output's row … -/
theorem lhs_row (p : Fin M) (q : Fin N) (k : (DotDims.plain M K N).contr.Idx) :
    ((DotDims.plain M K N).lhsIdx (ix2 p q) k ⟨0, Nat.zero_lt_two⟩).val = p.val := by
  unfold DotDims.lhsIdx
  rw [dif_neg (show ¬(⟨0, Nat.zero_lt_two⟩ : Fin 2) ∈ (DotDims.plain M K N).lhsBatch by simp [DotDims.plain]),
    dif_pos (show (⟨0, Nat.zero_lt_two⟩ : Fin 2) ∈ (DotDims.plain M K N).lhsNonContracting by simp [DotDims.plain])]
  rfl

/-- … its column the contraction index … -/
theorem lhs_col (p : Fin M) (q : Fin N) (k : (DotDims.plain M K N).contr.Idx) :
    ((DotDims.plain M K N).lhsIdx (ix2 p q) k ⟨1, Nat.one_lt_two⟩).val = (k ⟨0, Nat.one_pos⟩).val :=
  (DotDims.plain M K N).lhsIdx_val_of_single rfl (ix2 p q) k

/-- … the right operand's row the contraction index … -/
theorem rhs_row (p : Fin M) (q : Fin N) (k : (DotDims.plain M K N).contr.Idx) :
    ((DotDims.plain M K N).rhsIdx (ix2 p q) k ⟨0, Nat.zero_lt_two⟩).val = (k ⟨0, Nat.one_pos⟩).val :=
  (DotDims.plain M K N).rhsIdx_val_of_single rfl (ix2 p q) k

/-- … and its column the output's column. -/
theorem rhs_col (p : Fin M) (q : Fin N) (k : (DotDims.plain M K N).contr.Idx) :
    ((DotDims.plain M K N).rhsIdx (ix2 p q) k ⟨1, Nat.one_lt_two⟩).val = q.val := by
  unfold DotDims.rhsIdx
  rw [dif_neg (show ¬(⟨1, Nat.one_lt_two⟩ : Fin 2) ∈ (DotDims.plain M K N).rhsBatch by simp [DotDims.plain]),
    dif_pos (show (⟨1, Nat.one_lt_two⟩ : Fin 2) ∈ (DotDims.plain M K N).rhsNonContracting by simp [DotDims.plain])]
  rfl

/-- The sum over the one-axis contraction index is the sum over `k : Fin K` of `l (p, k) · r (k, q)`. -/
theorem plain_sum (l : (⟨2, ![M, K]⟩ : Shape).Idx → EReal) (r : (⟨2, ![K, N]⟩ : Shape).Idx → EReal) (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row p q _
      | ⟨1, _⟩ => exact (lhs_col p q _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row p q _).trans hk
      | ⟨1, _⟩ => exact rhs_col p q _)
  rw [el, er]

/-- A matrix-unit product into the zero splat, at `(p, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant (F := Ideal) ⟨2, ![M, N]⟩ .f32 0x00000000#32) (ix2 p q)
      = ∑ k : Fin K, l (ix2 p k) * r (ix2 k q) := by
  rw [Ideal.matmul_constant_zero_apply]
  exact plain_sum l r p q

/-- A host `dot_general`, at `(p, q)`, whatever its schedule key. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum l r p q

end Cert.LibPlainDot

end
-- ==== Proof.Layer0.lean ====
/-
  The first tiled layer, read whole.  The kernel computes, for a block of 5000 rows at a time,
      relu ( agg · Wl  +  h · Wr  +  bias ) ,
  where `agg` and `h` are `[100000, 64]` arrays (the scaled neighbour sums and the node features), `Wl`, `Wr` are
  `[64, 64]`, and `bias` is one row `[1, 64]` added to every row.  At the ideal values a matrix-unit product is a plain
  sum of products and the roundings to bf16 on its way in are the identity, so entry `(n, q)` of the result is
      max ( Σ_k agg(n,k)·Wl(k,q)  +  Σ_k h(n,k)·Wr(k,q)  +  bias(0,q) ,  0 ) ,
  a function of row `n` of the two arrays only.  Block `t` holds rows `5000·t … 5000·t + 4999`; the 20 blocks tile the
  100000 rows, so the array the region leaves is that function at every index.
-/
import proofs.«180650_j13683765805695_1_alg».proof.Proof.Gen.KernelIdeal.Frame
import proofs.«180650_j13683765805695_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Layer0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The layer as one function of whole arrays -/

/-- Entry `(n, q)` of the layer: the two products' sums, the bias, and the rectifier. -/
def entry (A H : S100000x64.Idx → EReal) (Wl Wr : S64x64.Idx → EReal) (B : S1x64.Idx → EReal)
    (n : Fin 100000) (q : Fin 64) : EReal :=
  max (((∑ k : Fin 64, A (ix2 n k) * Wl (ix2 k q)) + ∑ k : Fin 64, H (ix2 n k) * Wr (ix2 k q)) + B (ix2 (0 : Fin 1) q))
    (Ideal.ofBits .f32 0x00000000#32)

/-- An index's row and column as numbers of the literal ranges. -/
def row (i : S100000x64.Idx) : Fin 100000 := ⟨(i 0).val, idx2_lt0 i⟩
def col (i : S100000x64.Idx) : Fin 64 := ⟨(i 1).val, idx2_lt1 i⟩

/-- The layer's whole result. -/
def whole (A H : S100000x64.Idx → EReal) (Wl Wr : S64x64.Idx → EReal) (B : S1x64.Idx → EReal) :
    S100000x64.Idx → EReal :=
  fun i => entry A H Wl Wr B (row i) (col i)

/-! ## One block's payload at an index -/

/-- The matrix-unit product of the body, into the zero splat, at `(p, q)`. -/
theorem mm_apply (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) :=
  Cert.LibPlainDot.matmul_plain_apply none l r p q

/-- The bias row broadcast over the block's rows, at `(p, q)`. -/
theorem bias_apply (b : Vec Ideal S1x64 .f32) (p : Fin 5000) (q : Fin 64) :
    broadcastTo S5000x64 (shapeCast S1x64 (shapeCast S1x64 b shapeCasts_S1x64_S1x64) shapeCasts_S1x64_S1x64)
        broadcasts_S1x64_S5000x64 (ix2 p q) = b (ix2 (0 : Fin 1) q) := by
  rw [shapeCast_self, shapeCast_self]
  exact broadcastTo_1b_ab_apply b broadcasts_S1x64_S5000x64 p q

/-- The body's payload at `(p, q)` of its block: the sums over the block's row `p`, the bias at `q`, the rectifier. -/
theorem pay_apply (x0 x1 : Vec Ideal S5000x64 .f32) (x2 x4 : Vec Ideal S64x64 .f32) (x3 : Vec Ideal S1x64 .f32)
    (p : Fin 5000) (q : Fin 64) :
    k0_pay1 (F := Ideal) x0 x1 x2 x4 x3 (ix2 p q)
      = max (((∑ k : Fin 64, x0 (ix2 p k) * x2 (ix2 k q)) + ∑ k : Fin 64, x1 (ix2 p k) * x4 (ix2 k q)) + x3 (ix2 (0 : Fin 1) q))
          (Ideal.ofBits .f32 0x00000000#32) := by
  unfold k0_pay1
  simp only [maximumf_apply, addf_apply, broadcast_apply]
  rw [mm_apply, mm_apply, bias_apply]
  simp only [truncf_apply, shapeCast_self]
  rfl

/-! ## A point's block is the layer at the block's rows -/

/-- Over plain variables: if the two row blocks hold rows `5000·T + p` of `A` and `H`, and the three small blocks are the
    whole small arrays, the payload at `(p, q)` is the layer at any index whose row is `5000·T + p` and column `q`. -/
theorem point_eq (A H : S100000x64.Idx → EReal) (Wl Wr : S64x64.Idx → EReal) (B : S1x64.Idx → EReal)
    (x0 x1 : Vec Ideal S5000x64 .f32) (x2 x4 : Vec Ideal S64x64 .f32) (x3 : Vec Ideal S1x64 .f32) (T : Nat)
    (h0 : ∀ (y : S5000x64.Idx) (i : S100000x64.Idx), (i 0).val = T * 5000 + (y 0).val → (i 1).val = (y 1).val → x0 y = A i)
    (h1 : ∀ (y : S5000x64.Idx) (i : S100000x64.Idx), (i 0).val = T * 5000 + (y 0).val → (i 1).val = (y 1).val → x1 y = H i)
    (h2 : ∀ y, x2 y = Wl y) (h4 : ∀ y, x4 y = Wr y) (h3 : ∀ y, x3 y = B y)
    (p : Fin 5000) (q : Fin 64) (i : S100000x64.Idx) (hi0 : (i 0).val = T * 5000 + p.val) (hi1 : (i 1).val = q.val) :
    k0_pay1 (F := Ideal) x0 x1 x2 x4 x3 (ix2 p q) = whole A H Wl Wr B i := by
  have hc : col i = q := Fin.ext hi1
  have e0 : ∀ k : Fin 64, x0 (ix2 p k) = A (ix2 (row i) k) := fun k => h0 (ix2 p k) (ix2 (row i) k) hi0 rfl
  have e1 : ∀ k : Fin 64, x1 (ix2 p k) = H (ix2 (row i) k) := fun k => h1 (ix2 p k) (ix2 (row i) k) hi0 rfl
  rw [pay_apply]
  unfold whole entry
  rw [hc]
  simp only [e0, e1, h2, h4, h3]

/-! ## The windows' blocks, and the array the region leaves -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two row windows and the output move together, block `t` at
    block row `t`; the three small windows stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of the layer of the arrays as the region finds them. -/
theorem flushed_eq (c : Dev nD) (t : Fin cfg0.N) :
    (dat0 V c).flushed 5 t = ((cfg0.win 5).blk t).view.read (Elt Ideal)
      (whole (V c main_v24) (V c main_arg0) (V c main_arg2) (V c main_arg4) (V c main_v25)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨a0, a1, b0, b1, c0, c1, d0, d1, e0, e1, f0, f1⟩ := idx_facts t
  funext j
  obtain ⟨p, q, rfl⟩ : ∃ (p : Fin 5000) (q : Fin 64), j = ix2 p q := ⟨j 0, j 1, eq_ix2 j⟩
  refine point_eq (V c main_v24) (V c main_arg0) (V c main_arg2) (V c main_arg4) (V c main_v25)
    (iblk0 V c 0 t) (iblk0 V c 1 t) (iblk0 V c 2 t) (iblk0 V c 4 t) (iblk0 V c 3 t) t.val ?_ ?_ ?_ ?_ ?_
    p q (((cfg0.win 5).blk t).view.emb (ix2 p q)) ?_ ?_
  · intro y i hi0 hi1
    show V c main_v24 (((cfg0.win 0).blk t).view.emb y) = V c main_v24 i
    refine congrArg _ (funext fun a => Fin.ext ?_)
    match a with
    | ⟨0, _⟩ => show win0_0.index t (0 : Fin 2) * 5000 + 1 * (y 0).val = (i 0).val; rw [hi0, a0]; omega
    | ⟨1, _⟩ => show win0_0.index t (1 : Fin 2) * 64 + 1 * (y 1).val = (i 1).val; rw [hi1, a1]; omega
  · intro y i hi0 hi1
    show V c main_arg0 (((cfg0.win 1).blk t).view.emb y) = V c main_arg0 i
    refine congrArg _ (funext fun a => Fin.ext ?_)
    match a with
    | ⟨0, _⟩ => show win0_1.index t (0 : Fin 2) * 5000 + 1 * (y 0).val = (i 0).val; rw [hi0, b0]; omega
    | ⟨1, _⟩ => show win0_1.index t (1 : Fin 2) * 64 + 1 * (y 1).val = (i 1).val; rw [hi1, b1]; omega
  · intro y
    show V c main_arg2 (((cfg0.win 2).blk t).view.emb y) = V c main_arg2 y
    refine congrArg _ (funext fun a => Fin.ext ?_)
    match a with
    | ⟨0, _⟩ => show win0_2.index t (0 : Fin 2) * 64 + 1 * (y 0).val = (y 0).val; rw [c0]; omega
    | ⟨1, _⟩ => show win0_2.index t (1 : Fin 2) * 64 + 1 * (y 1).val = (y 1).val; rw [c1]; omega
  · intro y
    show V c main_arg4 (((cfg0.win 4).blk t).view.emb y) = V c main_arg4 y
    refine congrArg _ (funext fun a => Fin.ext ?_)
    match a with
    | ⟨0, _⟩ => show win0_4.index t (0 : Fin 2) * 64 + 1 * (y 0).val = (y 0).val; rw [e0]; omega
    | ⟨1, _⟩ => show win0_4.index t (1 : Fin 2) * 64 + 1 * (y 1).val = (y 1).val; rw [e1]; omega
  · intro y
    show V c main_v25 (((cfg0.win 3).blk t).view.emb y) = V c main_v25 y
    refine congrArg _ (funext fun a => Fin.ext ?_)
    match a with
    | ⟨0, _⟩ => show win0_3.index t (0 : Fin 2) * 1 + 1 * (y 0).val = (y 0).val; rw [d0]; omega
    | ⟨1, _⟩ => show win0_3.index t (1 : Fin 2) * 64 + 1 * (y 1).val = (y 1).val; rw [d1]; omega
  · show win0_5.index t (0 : Fin 2) * 5000 + 1 * p.val = t.val * 5000 + p.val
    rw [f0]; omega
  · show win0_5.index t (1 : Fin 2) * 64 + 1 * q.val = q.val
    rw [f1]; omega

/-- An index of the array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v26).slice (win0_5.rect t)).set ↔ _
  rw [View.set_slice_whole, Rect.mem_set_unit]
  exact Iff.rfl

/-- Every row is in some block: row `r` in block `r / 5000`. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_5 _, ?_⟩
  rw [mem_blk]
  obtain ⟨-, -, -, -, -, -, -, -, -, -, f0, f1⟩ := idx_facts ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [f0]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [f1]; omega

/-- THE ARRAY the region leaves: the layer of the arrays as the region finds them, at every index. -/
theorem final (c : Dev nD) :
    (dat0 V c).arrAt 5 cfg0.N = whole (V c main_v24) (V c main_arg0) (V c main_arg2) (V c main_arg4) (V c main_v25) :=
  (dat0 V c).arrAt_eq_of_cover 5 _ (fun t _ => flushed_eq V c t) cover

end Cert.KernelIdeal.Layer0

end
-- ==== Proof.Layer1.lean ====
/-
  The second tiled layer, read whole.  As the first, at other extents: for a block of 5000 rows at a time the kernel
  computes
      relu ( agg · Wl  +  h · Wr  +  bias ) ,
  with `agg` and `h` of shape `[100000, 64]`, `Wl`, `Wr` of shape `[64, 128]` and `bias` one row `[1, 128]`.  At the ideal
  values entry `(n, q)` of the `[100000, 128]` result is
      max ( Σ_k agg(n,k)·Wl(k,q)  +  Σ_k h(n,k)·Wr(k,q)  +  bias(0,q) ,  0 ) ,
  and the 20 blocks of 5000 rows tile the array, so the region leaves that function at every index.
-/
import proofs.«180650_j13683765805695_1_alg».proof.Proof.Gen.KernelIdeal.Frame
import proofs.«180650_j13683765805695_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Layer1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The layer as one function of whole arrays -/

/-- Entry `(n, q)` of the layer: the two products' sums, the bias, and the rectifier. -/
def entry (A H : S100000x64.Idx → EReal) (Wl Wr : S64x128.Idx → EReal) (B : S1x128.Idx → EReal)
    (n : Fin 100000) (q : Fin 128) : EReal :=
  max (((∑ k : Fin 64, A (ix2 n k) * Wl (ix2 k q)) + ∑ k : Fin 64, H (ix2 n k) * Wr (ix2 k q)) + B (ix2 (0 : Fin 1) q))
    (Ideal.ofBits .f32 0x00000000#32)

/-- An index's row and column as numbers of the literal ranges. -/
def row (i : S100000x128.Idx) : Fin 100000 := ⟨(i 0).val, idx2_lt0 i⟩
def col (i : S100000x128.Idx) : Fin 128 := ⟨(i 1).val, idx2_lt1 i⟩

/-- The layer's whole result. -/
def whole (A H : S100000x64.Idx → EReal) (Wl Wr : S64x128.Idx → EReal) (B : S1x128.Idx → EReal) :
    S100000x128.Idx → EReal :=
  fun i => entry A H Wl Wr B (row i) (col i)

/-! ## One block's payload at an index -/

/-- The matrix-unit product of the body, into the zero splat, at `(p, q)`. -/
theorem mm_apply (l : FVec Ideal S5000x64 .bf16) (r : FVec Ideal S64x128 .bf16) (p : Fin 5000) (q : Fin 128) :
    matmul dot_S5000x64_S64x128_S5000x128_1_0_0_1_n_n none l r (constant (F := Ideal) S5000x128 .f32 0x00000000#32) (ix2 p q)
      = ∑ k : Fin 64, l (ix2 p k) * r (ix2 k q) :=
  Cert.LibPlainDot.matmul_plain_apply none l r p q

/-- The bias row broadcast over the block's rows, at `(p, q)`. -/
theorem bias_apply (b : Vec Ideal S1x128 .f32) (p : Fin 5000) (q : Fin 128) :
    broadcastTo S5000x128 (shapeCast S1x128 (shapeCast S1x128 b shapeCasts_S1x128_S1x128) shapeCasts_S1x128_S1x128)
        broadcasts_S1x128_S5000x128 (ix2 p q) = b (ix2 (0 : Fin 1) q) := by
  rw [shapeCast_self, shapeCast_self]
  exact broadcastTo_1b_ab_apply b broadcasts_S1x128_S5000x128 p q

/-- The body's payload at `(p, q)` of its block: the sums over the block's row `p`, the bias at `q`, the rectifier. -/
theorem pay_apply (x0 x1 : Vec Ideal S5000x64 .f32) (x2 x4 : Vec Ideal S64x128 .f32) (x3 : Vec Ideal S1x128 .f32)
    (p : Fin 5000) (q : Fin 128) :
    k1_pay1 (F := Ideal) x0 x1 x2 x4 x3 (ix2 p q)
      = max (((∑ k : Fin 64, x0 (ix2 p k) * x2 (ix2 k q)) + ∑ k : Fin 64, x1 (ix2 p k) * x4 (ix2 k q)) + x3 (ix2 (0 : Fin 1) q))
          (Ideal.ofBits .f32 0x00000000#32) := by
  unfold k1_pay1
  simp only [maximumf_apply, addf_apply, broadcast_apply]
  rw [mm_apply, mm_apply, bias_apply]
  simp only [truncf_apply, shapeCast_self]
  rfl

/-! ## A point's block is the layer at the block's rows -/

/-- Over plain variables: if the two row blocks hold rows `5000·T + p` of `A` and `H`, and the three small blocks are the
    whole small arrays, the payload at `(p, q)` is the layer at any index whose row is `5000·T + p` and column `q`. -/
theorem point_eq (A H : S100000x64.Idx → EReal) (Wl Wr : S64x128.Idx → EReal) (B : S1x128.Idx → EReal)
    (x0 x1 : Vec Ideal S5000x64 .f32) (x2 x4 : Vec Ideal S64x128 .f32) (x3 : Vec Ideal S1x128 .f32) (T : Nat)
    (h0 : ∀ (y : S5000x64.Idx) (i : S100000x64.Idx), (i 0).val = T * 5000 + (y 0).val → (i 1).val = (y 1).val → x0 y = A i)
    (h1 : ∀ (y : S5000x64.Idx) (i : S100000x64.Idx), (i 0).val = T * 5000 + (y 0).val → (i 1).val = (y 1).val → x1 y = H i)
    (h2 : ∀ y, x2 y = Wl y) (h4 : ∀ y, x4 y = Wr y) (h3 : ∀ y, x3 y = B y)
    (p : Fin 5000) (q : Fin 128) (i : S100000x128.Idx) (hi0 : (i 0).val = T * 5000 + p.val) (hi1 : (i 1).val = q.val) :
    k1_pay1 (F := Ideal) x0 x1 x2 x4 x3 (ix2 p q) = whole A H Wl Wr B i := by
  have hc : col i = q := Fin.ext hi1
  have e0 : ∀ k : Fin 64, x0 (ix2 p k) = A (ix2 (row i) k) := fun k => h0 (ix2 p k) (ix2 (row i) k) hi0 rfl
  have e1 : ∀ k : Fin 64, x1 (ix2 p k) = H (ix2 (row i) k) := fun k => h1 (ix2 p k) (ix2 (row i) k) hi0 rfl
  rw [pay_apply]
  unfold whole entry
  rw [hc]
  simp only [e0, e1, h2, h4, h3]

/-! ## The windows' blocks, and the array the region leaves -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two row windows and the output move together, block `t` at
    block row `t`; the three small windows stay at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of the layer of the arrays as the region finds them. -/
theorem flushed_eq (c : Dev nD) (t : Fin cfg1.N) :
    (dat1 V c).flushed 5 t = ((cfg1.win 5).blk t).view.read (Elt Ideal)
      (whole (V c main_v38) (V c main_v26) (V c main_arg5) (V c main_arg7) (V c main_v39)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x128) hz, View.ld_unit_zero (S := S1x128) hz, View.ld_unit_zero (S := S5000x128) hz]
  obtain ⟨a0, a1, b0, b1, c0, c1, d0, d1, e0, e1, f0, f1⟩ := idx_facts t
  funext j
  obtain ⟨p, q, rfl⟩ : ∃ (p : Fin 5000) (q : Fin 128), j = ix2 p q := ⟨j 0, j 1, eq_ix2 j⟩
  refine point_eq (V c main_v38) (V c main_v26) (V c main_arg5) (V c main_arg7) (V c main_v39)
    (iblk1 V c 0 t) (iblk1 V c 1 t) (iblk1 V c 2 t) (iblk1 V c 4 t) (iblk1 V c 3 t) t.val ?_ ?_ ?_ ?_ ?_
    p q (((cfg1.win 5).blk t).view.emb (ix2 p q)) ?_ ?_
  · intro y i hi0 hi1
    show V c main_v38 (((cfg1.win 0).blk t).view.emb y) = V c main_v38 i
    refine congrArg _ (funext fun a => Fin.ext ?_)
    match a with
    | ⟨0, _⟩ => show win1_0.index t (0 : Fin 2) * 5000 + 1 * (y 0).val = (i 0).val; rw [hi0, a0]; omega
    | ⟨1, _⟩ => show win1_0.index t (1 : Fin 2) * 64 + 1 * (y 1).val = (i 1).val; rw [hi1, a1]; omega
  · intro y i hi0 hi1
    show V c main_v26 (((cfg1.win 1).blk t).view.emb y) = V c main_v26 i
    refine congrArg _ (funext fun a => Fin.ext ?_)
    match a with
    | ⟨0, _⟩ => show win1_1.index t (0 : Fin 2) * 5000 + 1 * (y 0).val = (i 0).val; rw [hi0, b0]; omega
    | ⟨1, _⟩ => show win1_1.index t (1 : Fin 2) * 64 + 1 * (y 1).val = (i 1).val; rw [hi1, b1]; omega
  · intro y
    show V c main_arg5 (((cfg1.win 2).blk t).view.emb y) = V c main_arg5 y
    refine congrArg _ (funext fun a => Fin.ext ?_)
    match a with
    | ⟨0, _⟩ => show win1_2.index t (0 : Fin 2) * 64 + 1 * (y 0).val = (y 0).val; rw [c0]; omega
    | ⟨1, _⟩ => show win1_2.index t (1 : Fin 2) * 128 + 1 * (y 1).val = (y 1).val; rw [c1]; omega
  · intro y
    show V c main_arg7 (((cfg1.win 4).blk t).view.emb y) = V c main_arg7 y
    refine congrArg _ (funext fun a => Fin.ext ?_)
    match a with
    | ⟨0, _⟩ => show win1_4.index t (0 : Fin 2) * 64 + 1 * (y 0).val = (y 0).val; rw [e0]; omega
    | ⟨1, _⟩ => show win1_4.index t (1 : Fin 2) * 128 + 1 * (y 1).val = (y 1).val; rw [e1]; omega
  · intro y
    show V c main_v39 (((cfg1.win 3).blk t).view.emb y) = V c main_v39 y
    refine congrArg _ (funext fun a => Fin.ext ?_)
    match a with
    | ⟨0, _⟩ => show win1_3.index t (0 : Fin 2) * 1 + 1 * (y 0).val = (y 0).val; rw [d0]; omega
    | ⟨1, _⟩ => show win1_3.index t (1 : Fin 2) * 128 + 1 * (y 1).val = (y 1).val; rw [d1]; omega
  · show win1_5.index t (0 : Fin 2) * 5000 + 1 * p.val = t.val * 5000 + p.val
    rw [f0]; omega
  · show win1_5.index t (1 : Fin 2) * 128 + 1 * q.val = q.val
    rw [f1]; omega

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- Every row is in some block: row `r` in block `r / 5000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_blk]
  obtain ⟨-, -, -, -, -, -, -, -, -, -, f0, f1⟩ := idx_facts ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [f0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [f1]; omega

/-- THE ARRAY the region leaves: the layer of the arrays as the region finds them, at every index. -/
theorem final (c : Dev nD) :
    (dat1 V c).arrAt 5 cfg1.N = whole (V c main_v38) (V c main_v26) (V c main_arg5) (V c main_arg7) (V c main_v39) :=
  (dat1 V c).arrAt_eq_of_cover 5 _ (fun t _ => flushed_eq V c t) cover

end Cert.KernelIdeal.Layer1

end
-- ==== Proof.LibRowReduce.lean ====
/-
  Reductions along a row, and the two "keep the reduced axis" layout steps, read at an index at the ideal instance
  (floats are extended reals, every operation exact), free of any program.

  For a `[m, n]` array reduced over its second axis to `[m]`:
    * a kernel's lane sum at row `p` is the sum over the `n` columns of that row, a lane maximum the fold of `max` from
      the accumulator's value over them;
    * a host reduce with a maximum body at row `p` is the same fold from its initial value.
  A reduced vector `[a]` is put back beside the array by a cast to a column `[a, 1]` and a broadcast of that column to
  `[a, b]`; entry `(p, c)` of the result is entry `p` of the vector.
-/
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.LibRowReduce

open Idealize.ShloMosaic Idealize.ShloMosaic.ValueIdx

variable {m n : Nat}

/-- The reduced index `p` with column `k` put back is `(p, k)`. -/
theorem lift_row (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A lane sum over a row. -/
theorem rowSum_apply (src : FVec Ideal ⟨2, ![m, n]⟩ .f32) (acc : BitVec 32)
    (h : (⟨2, ![m, n]⟩ : Shape).Reduces [1] (⟨1, ![m]⟩ : Shape)) (hφ : FKind.Formats .f32)
    (hacc : acc = FKind.add.neutral .f32 hφ) (p : Fin m) :
    multiReduction .add [1] ⟨1, ![m]⟩ src acc h hφ hacc (ix1 p) = ∑ k : Fin n, src (ix2 p k) := by
  rw [Ideal.multiReduction_add_single]
  exact Finset.sum_congr rfl fun k _ => congrArg src (lift_row h p k)

/-- A lane maximum over a row: the fold of `max` from the accumulator's value. -/
theorem rowMax_apply (src : FVec Ideal ⟨2, ![m, n]⟩ .f32) (acc : BitVec 32)
    (h : (⟨2, ![m, n]⟩ : Shape).Reduces [1] (⟨1, ![m]⟩ : Shape)) (hφ : FKind.Formats .f32)
    (hacc : acc = FKind.maximumf.neutral .f32 hφ) (p : Fin m) :
    multiReduction .maximumf [1] ⟨1, ![m]⟩ src acc h hφ hacc (ix1 p)
      = (Finset.univ : Finset (Fin n)).fold max (Ideal.ofBits .f32 acc) (fun k => src (ix2 p k)) := by
  rw [Ideal.multiReduction_maximumf_single]
  have hf : (src ∘ h.lift (ix1 p)) = fun k : Fin n => src (ix2 p k) := funext fun k => congrArg src (lift_row h p k)
  exact congrArg (fun f => Finset.fold max (Ideal.ofBits .f32 acc) f (Finset.univ : Finset (Fin n))) hf

/-- The host's reduce with a maximum body over a row: the fold of `max` from the initial value. -/
theorem hostRowMax_apply (x : FVec Ideal ⟨2, ![m, n]⟩ .f32) (init : (⟨0, ![]⟩ : Shape).Idx → EReal)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (p : Fin m) :
    Host.reduce (FloatOps.maximumf (F := Ideal) (φ := .f32)) x init h' hu (ix1 p)
      = (Finset.univ : Finset (Fin n)).fold max (init (Shape.Idx.first hu)) (fun k => x (ix2 p k)) := by
  rw [Host.reduce_eq_fold_single FloatOps.maximumf x _ h' h hu]
  have hf : (x ∘ h.lift (ix1 p)) = fun k : Fin n => x (ix2 p k) := funext fun k => congrArg x (lift_row h p k)
  exact congrArg (fun f => Finset.fold max (init (Shape.Idx.first hu)) f (Finset.univ : Finset (Fin n))) hf

/-- A fold of `max` from `a` is at least `a`, so taking the maximum with `a` once more changes nothing. -/
theorem max_fold_max {ι : Type*} (s : Finset ι) (a : EReal) (f : ι → EReal) :
    max a (s.fold max a f) = s.fold max a f :=
  max_eq_right ((Finset.le_fold_max a).2 (Or.inl le_rfl))

variable {α : Type} {a b : Nat}

/-- An `[a]` array cast to the column `[a, 1]` reads, at `(p, u)`, the operand at `p`, whatever the unit coordinate. -/
theorem shapeCast_a_a1_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibRowReduce

end
-- ==== Proof.Layer2.lean ====
/-
  The third tiled layer, read whole: the two products and the bias as in the first two layers (no rectifier), then a
  log-softmax along each row, all inside the kernel.  For a block of 5000 rows at a time, with `agg`, `h` of shape
  `[100000, 128]`, `Wl`, `Wr` of shape `[128, 40]` and `bias` one row `[1, 40]`:
      pre(n,q)  =  Σ_k agg(n,k)·Wl(k,q)  +  Σ_k h(n,k)·Wr(k,q)  +  bias(0,q)
      M(n)      =  the maximum over the row's 40 entries of pre(n,·), folded from −∞
      z(n,q)    =  pre(n,q) − M(n)
      out(n,q)  =  z(n,q) − log Σ_q' exp z(n,q') .
  Every step uses row `n` only, so a block of rows of the result is that function of the same rows of the inputs; the
  20 blocks of 5000 rows tile the `[100000, 40]` array, and the region leaves the function at every index.
-/
import proofs.«180650_j13683765805695_1_alg».proof.Proof.Gen.KernelIdeal.Frame
import proofs.«180650_j13683765805695_1_alg».proof.Proof.LibPlainDot
import proofs.«180650_j13683765805695_1_alg».proof.Proof.LibRowReduce
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Layer2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The layer as one function of whole arrays -/

/-- Entry `(n, q)` before the log-softmax: the two products' sums and the bias. -/
def pre (A H : S100000x128.Idx → EReal) (Wl Wr : S128x40.Idx → EReal) (B : S1x40.Idx → EReal)
    (n : Fin 100000) (q : Fin 40) : EReal :=
  ((∑ k : Fin 128, A (ix2 n k) * Wl (ix2 k q)) + ∑ k : Fin 128, H (ix2 n k) * Wr (ix2 k q)) + B (ix2 (0 : Fin 1) q)

/-- A row's maximum, folded from −∞. -/
def rowMax (f : Fin 40 → EReal) : EReal :=
  (Finset.univ : Finset (Fin 40)).fold max (Ideal.ofBits .f32 0xFF800000#32) f

/-- The log-softmax of a row of 40 entries, at entry `q`. -/
def logSoftmax (f : Fin 40 → EReal) (q : Fin 40) : EReal :=
  (f q - rowMax f) - Ideal.log (∑ k : Fin 40, Ideal.exp (f k - rowMax f))

/-- An index's row and column as numbers of the literal ranges. -/
def row (i : S100000x40.Idx) : Fin 100000 := ⟨(i 0).val, idx2_lt0 i⟩
def col (i : S100000x40.Idx) : Fin 40 := ⟨(i 1).val, idx2_lt1 i⟩

/-- The layer's whole result. -/
def whole (A H : S100000x128.Idx → EReal) (Wl Wr : S128x40.Idx → EReal) (B : S1x40.Idx → EReal) :
    S100000x40.Idx → EReal :=
  fun i => logSoftmax (fun k => pre A H Wl Wr B (row i) k) (col i)

/-! ## The payload in two parts -/

/-- The first part: the two matrix-unit products of the (rounded) blocks and the bias row over every row. -/
def head (x0 x1 : Vec Ideal S5000x128 .f32) (x2 x4 : Vec Ideal S128x40 .f32) (x3 : Vec Ideal S1x40 .f32) :
    FVec Ideal S5000x40 .f32 :=
  addf
    (addf
      (matmul dot_S5000x128_S128x40_S5000x40_1_0_0_1_n_n none
        (truncf .bf16 (shapeCast S5000x128 x0 shapeCasts_S5000x128_S5000x128) bitsLt_bf16_f32) (truncf .bf16 x2 bitsLt_bf16_f32)
        (constant (F := Ideal) S5000x40 .f32 0x00000000#32))
      (matmul dot_S5000x128_S128x40_S5000x40_1_0_0_1_n_n none
        (truncf .bf16 (shapeCast S5000x128 x1 shapeCasts_S5000x128_S5000x128) bitsLt_bf16_f32) (truncf .bf16 x4 bitsLt_bf16_f32)
        (constant (F := Ideal) S5000x40 .f32 0x00000000#32)))
    (broadcastTo S5000x40 (shapeCast S1x40 (shapeCast S1x40 x3 shapeCasts_S1x40_S1x40) shapeCasts_S1x40_S1x40)
      broadcasts_S1x40_S5000x40)

/-- Each row's maximum, put back over the row. -/
def rowMaxB (v : FVec Ideal S5000x40 .f32) : FVec Ideal S5000x40 .f32 :=
  broadcastTo S5000x40
    (shapeCast S5000x1 (multiReduction .maximumf [1] S5000 v 0xFF800000#32 reduces_S5000x40_S5000 (.inl rfl) rfl)
      shapeCasts_S5000_S5000x1)
    broadcasts_S5000x1_S5000x40

/-- The block with each row's maximum subtracted. -/
def shifted (v : FVec Ideal S5000x40 .f32) : FVec Ideal S5000x40 .f32 := subf v (rowMaxB v)

/-- The logarithm of each row's sum of exponentials, put back over the row. -/
def logSumB (z : FVec Ideal S5000x40 .f32) : FVec Ideal S5000x40 .f32 :=
  broadcastTo S5000x40
    (log (shapeCast S5000x1 (multiReduction .add [1] S5000 (exp z) 0x00000000#32 reduces_S5000x40_S5000 (.inl rfl) rfl)
      shapeCasts_S5000_S5000x1))
    broadcasts_S5000x1_S5000x40

/-- The second part: the log-softmax along each row. -/
def tail (v : FVec Ideal S5000x40 .f32) : FVec Ideal S5000x40 .f32 := subf (shifted v) (logSumB (shifted v))

/-- The body's payload is the second part of the first. -/
theorem pay_split (x0 x1 : Vec Ideal S5000x128 .f32) (x2 x4 : Vec Ideal S128x40 .f32) (x3 : Vec Ideal S1x40 .f32) :
    k2_pay1 (F := Ideal) x0 x1 x2 x4 x3 = tail (head x0 x1 x2 x4 x3) := rfl

/-! ## Each part at an index -/

/-- The matrix-unit product of the body, into the zero splat, at `(p, q)`. -/
theorem mm_apply (l : FVec Ideal S5000x128 .bf16) (r : FVec Ideal S128x40 .bf16) (p : Fin 5000) (q : Fin 40) :
    matmul dot_S5000x128_S128x40_S5000x40_1_0_0_1_n_n none l r (constant (F := Ideal) S5000x40 .f32 0x00000000#32) (ix2 p q)
      = ∑ k : Fin 128, l (ix2 p k) * r (ix2 k q) :=
  Cert.LibPlainDot.matmul_plain_apply none l r p q

/-- The bias row broadcast over the block's rows, at `(p, q)`. -/
theorem bias_apply (b : Vec Ideal S1x40 .f32) (p : Fin 5000) (q : Fin 40) :
    broadcastTo S5000x40 (shapeCast S1x40 (shapeCast S1x40 b shapeCasts_S1x40_S1x40) shapeCasts_S1x40_S1x40)
        broadcasts_S1x40_S5000x40 (ix2 p q) = b (ix2 (0 : Fin 1) q) := by
  rw [shapeCast_self, shapeCast_self]
  exact broadcastTo_1b_ab_apply b broadcasts_S1x40_S5000x40 p q

/-- The first part at `(p, q)`: the sums over the block's row `p` and the bias at `q`. -/
theorem head_apply (x0 x1 : Vec Ideal S5000x128 .f32) (x2 x4 : Vec Ideal S128x40 .f32) (x3 : Vec Ideal S1x40 .f32)
    (p : Fin 5000) (q : Fin 40) :
    head x0 x1 x2 x4 x3 (ix2 p q)
      = ((∑ k : Fin 128, x0 (ix2 p k) * x2 (ix2 k q)) + ∑ k : Fin 128, x1 (ix2 p k) * x4 (ix2 k q)) + x3 (ix2 (0 : Fin 1) q) := by
  unfold head
  simp only [addf_apply]
  rw [mm_apply, mm_apply, bias_apply]
  simp only [truncf_apply, shapeCast_self]

/-- A row's maximum put back, at `(p, q)`: the fold of `max` from −∞ over row `p`. -/
theorem rowMaxB_apply (v : FVec Ideal S5000x40 .f32) (p : Fin 5000) (q : Fin 40) :
    rowMaxB v (ix2 p q) = rowMax (fun k => v (ix2 p k)) :=
  (Cert.LibRowReduce.broadcastTo_a1_ab_apply _ broadcasts_S5000x1_S5000x40 p q).trans
    ((Cert.LibRowReduce.shapeCast_a_a1_apply _ shapeCasts_S5000_S5000x1 p 0).trans
      (Cert.LibRowReduce.rowMax_apply v 0xFF800000#32 reduces_S5000x40_S5000 (.inl rfl) rfl p))

theorem shifted_apply (v : FVec Ideal S5000x40 .f32) (p : Fin 5000) (q : Fin 40) :
    shifted v (ix2 p q) = v (ix2 p q) - rowMax (fun k => v (ix2 p k)) := by
  unfold shifted
  rw [subf_apply, rowMaxB_apply]

/-- The logarithm of a row's sum of exponentials put back, at `(p, q)`. -/
theorem logSumB_apply (z : FVec Ideal S5000x40 .f32) (p : Fin 5000) (q : Fin 40) :
    logSumB z (ix2 p q) = Ideal.log (∑ k : Fin 40, Ideal.exp (z (ix2 p k))) :=
  (Cert.LibRowReduce.broadcastTo_a1_ab_apply _ broadcasts_S5000x1_S5000x40 p q).trans
    (congrArg Ideal.log
      ((Cert.LibRowReduce.shapeCast_a_a1_apply _ shapeCasts_S5000_S5000x1 p 0).trans
        (Cert.LibRowReduce.rowSum_apply (exp z) 0x00000000#32 reduces_S5000x40_S5000 (.inl rfl) rfl p)))

/-- The second part at `(p, q)`: the log-softmax of row `p` at `q`. -/
theorem tail_apply (v : FVec Ideal S5000x40 .f32) (p : Fin 5000) (q : Fin 40) :
    tail v (ix2 p q) = logSoftmax (fun k => v (ix2 p k)) q := by
  unfold tail logSoftmax
  rw [subf_apply, logSumB_apply, shifted_apply]
  simp only [shifted_apply]

/-! ## A point's block is the layer at the block's rows -/

/-- Over plain variables: if the two row blocks hold rows `5000·T + p` of `A` and `H`, and the three small blocks are the
    whole small arrays, the payload at `(p, q)` is the layer at any index whose row is `5000·T + p` and column `q`. -/
theorem point_eq (A H : S100000x128.Idx → EReal) (Wl Wr : S128x40.Idx → EReal) (B : S1x40.Idx → EReal)
    (x0 x1 : Vec Ideal S5000x128 .f32) (x2 x4 : Vec Ideal S128x40 .f32) (x3 : Vec Ideal S1x40 .f32) (T : Nat)
    (h0 : ∀ (y : S5000x128.Idx) (i : S100000x128.Idx), (i 0).val = T * 5000 + (y 0).val → (i 1).val = (y 1).val → x0 y = A i)
    (h1 : ∀ (y : S5000x128.Idx) (i : S100000x128.Idx), (i 0).val = T * 5000 + (y 0).val → (i 1).val = (y 1).val → x1 y = H i)
    (h2 : ∀ y, x2 y = Wl y) (h4 : ∀ y, x4 y = Wr y) (h3 : ∀ y, x3 y = B y)
    (p : Fin 5000) (q : Fin 40) (i : S100000x40.Idx) (hi0 : (i 0).val = T * 5000 + p.val) (hi1 : (i 1).val = q.val) :
    k2_pay1 (F := Ideal) x0 x1 x2 x4 x3 (ix2 p q) = whole A H Wl Wr B i := by
  have hc : col i = q := Fin.ext hi1
  have e0 : ∀ k : Fin 128, x0 (ix2 p k) = A (ix2 (row i) k) := fun k => h0 (ix2 p k) (ix2 (row i) k) hi0 rfl
  have e1 : ∀ k : Fin 128, x1 (ix2 p k) = H (ix2 (row i) k) := fun k => h1 (ix2 p k) (ix2 (row i) k) hi0 rfl
  have hrow : (fun k : Fin 40 => head x0 x1 x2 x4 x3 (ix2 p k)) = fun k => pre A H Wl Wr B (row i) k := by
    funext k
    rw [head_apply]
    unfold pre
    simp only [e0, e1, h2, h4, h3]
  rw [pay_split, tail_apply, hrow]
  unfold whole
  rw [hc]

/-! ## The windows' blocks, and the array the region leaves -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two row windows and the output move together, block `t` at
    block row `t`; the three small windows stay at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- WHAT POINT `t` WRITES BACK is block `t` of the layer of the arrays as the region finds them. -/
theorem flushed_eq (c : Dev nD) (t : Fin cfg2.N) :
    (dat2 V c).flushed 5 t = ((cfg2.win 5).blk t).view.read (Elt Ideal)
      (whole (V c main_v52) (V c main_v40) (V c main_arg8) (V c main_arg10) (V c main_v53)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x40) hz, View.ld_unit_zero (S := S1x40) hz, View.ld_unit_zero (S := S5000x40) hz]
  obtain ⟨a0, a1, b0, b1, c0, c1, d0, d1, e0, e1, f0, f1⟩ := idx_facts t
  funext j
  obtain ⟨p, q, rfl⟩ : ∃ (p : Fin 5000) (q : Fin 40), j = ix2 p q := ⟨j 0, j 1, eq_ix2 j⟩
  refine point_eq (V c main_v52) (V c main_v40) (V c main_arg8) (V c main_arg10) (V c main_v53)
    (iblk2 V c 0 t) (iblk2 V c 1 t) (iblk2 V c 2 t) (iblk2 V c 4 t) (iblk2 V c 3 t) t.val ?_ ?_ ?_ ?_ ?_
    p q (((cfg2.win 5).blk t).view.emb (ix2 p q)) ?_ ?_
  · intro y i hi0 hi1
    show V c main_v52 (((cfg2.win 0).blk t).view.emb y) = V c main_v52 i
    refine congrArg _ (funext fun a => Fin.ext ?_)
    match a with
    | ⟨0, _⟩ => show win2_0.index t (0 : Fin 2) * 5000 + 1 * (y 0).val = (i 0).val; rw [hi0, a0]; omega
    | ⟨1, _⟩ => show win2_0.index t (1 : Fin 2) * 128 + 1 * (y 1).val = (i 1).val; rw [hi1, a1]; omega
  · intro y i hi0 hi1
    show V c main_v40 (((cfg2.win 1).blk t).view.emb y) = V c main_v40 i
    refine congrArg _ (funext fun a => Fin.ext ?_)
    match a with
    | ⟨0, _⟩ => show win2_1.index t (0 : Fin 2) * 5000 + 1 * (y 0).val = (i 0).val; rw [hi0, b0]; omega
    | ⟨1, _⟩ => show win2_1.index t (1 : Fin 2) * 128 + 1 * (y 1).val = (i 1).val; rw [hi1, b1]; omega
  · intro y
    show V c main_arg8 (((cfg2.win 2).blk t).view.emb y) = V c main_arg8 y
    refine congrArg _ (funext fun a => Fin.ext ?_)
    match a with
    | ⟨0, _⟩ => show win2_2.index t (0 : Fin 2) * 128 + 1 * (y 0).val = (y 0).val; rw [c0]; omega
    | ⟨1, _⟩ => show win2_2.index t (1 : Fin 2) * 40 + 1 * (y 1).val = (y 1).val; rw [c1]; omega
  · intro y
    show V c main_arg10 (((cfg2.win 4).blk t).view.emb y) = V c main_arg10 y
    refine congrArg _ (funext fun a => Fin.ext ?_)
    match a with
    | ⟨0, _⟩ => show win2_4.index t (0 : Fin 2) * 128 + 1 * (y 0).val = (y 0).val; rw [e0]; omega
    | ⟨1, _⟩ => show win2_4.index t (1 : Fin 2) * 40 + 1 * (y 1).val = (y 1).val; rw [e1]; omega
  · intro y
    show V c main_v53 (((cfg2.win 3).blk t).view.emb y) = V c main_v53 y
    refine congrArg _ (funext fun a => Fin.ext ?_)
    match a with
    | ⟨0, _⟩ => show win2_3.index t (0 : Fin 2) * 1 + 1 * (y 0).val = (y 0).val; rw [d0]; omega
    | ⟨1, _⟩ => show win2_3.index t (1 : Fin 2) * 40 + 1 * (y 1).val = (y 1).val; rw [d1]; omega
  · show win2_5.index t (0 : Fin 2) * 5000 + 1 * p.val = t.val * 5000 + p.val
    rw [f0]; omega
  · show win2_5.index t (1 : Fin 2) * 40 + 1 * q.val = q.val
    rw [f1]; omega

/-- An index of the array is in point `t`'s block iff each coordinate is in the block's range on its axis. -/
theorem mem_blk (t : Fin cfg2.N) (i : S100000x40.Idx) :
    i ∈ ((cfg2.win 5).blk t).view.set ↔ ∀ a : Fin 2, win2_5.index t a * S5000x40.size a ≤ (i a).val ∧ (i a).val < win2_5.index t a * S5000x40.size a + S5000x40.size a := by
  show i ∈ ((View.whole main_v54).slice (win2_5.rect t)).set ↔ _
  rw [View.set_slice_whole, Rect.mem_set_unit]
  exact Iff.rfl

/-- Every row is in some block: row `r` in block `r / 5000`. -/
theorem cover (i : S100000x40.Idx) :
    ∃ t : Fin cfg2.N, (cfg2.win 5).flush t = true ∧ i ∈ ((cfg2.win 5).blk t).view.set := by
  have hi0 : (i 0).val < 100000 := (i 0).isLt
  have hi1 : (i 1).val < 40 := (i 1).isLt
  have hN : cfg2.N = 20 := N_2
  refine ⟨⟨(i 0).val / 5000, by rw [hN]; omega⟩, flush2_5 _, ?_⟩
  rw [mem_blk]
  obtain ⟨-, -, -, -, -, -, -, -, -, -, f0, f1⟩ := idx_facts ⟨(i 0).val / 5000, by rw [hN]; omega⟩
  intro a
  match a with
  | ⟨0, _⟩ =>
    show win2_5.index _ (0 : Fin 2) * 5000 ≤ (i 0).val ∧ (i 0).val < win2_5.index _ (0 : Fin 2) * 5000 + 5000
    rw [f0]; show (i 0).val / 5000 * 5000 ≤ (i 0).val ∧ (i 0).val < (i 0).val / 5000 * 5000 + 5000; omega
  | ⟨1, _⟩ =>
    show win2_5.index _ (1 : Fin 2) * 40 ≤ (i 1).val ∧ (i 1).val < win2_5.index _ (1 : Fin 2) * 40 + 40
    rw [f1]; omega

/-- THE ARRAY the region leaves: the layer of the arrays as the region finds them, at every index. -/
theorem final (c : Dev nD) :
    (dat2 V c).arrAt 5 cfg2.N = whole (V c main_v52) (V c main_v40) (V c main_arg8) (V c main_arg10) (V c main_v53) :=
  (dat2 V c).arrAt_eq_of_cover 5 _ (fun t _ => flushed_eq V c t) cover

end Cert.KernelIdeal.Layer2

end
-- ==== Proof.HostChain.lean ====
/-
  The kernel's host operations around its three tiled layers, as named functions.

  From the edge array `e : i32[2, 1600000]` (row 0 the source of each edge, row 1 its destination):
    * `src e`, `dst e`: the two rows as flat arrays; `srcCol e`, `dstCol e`: the same as columns `[1600000, 1]`, the
      sources first made nonnegative (a negative index counts from the end: `src + 100000` where `src < 0`);
    * `count e`: for each node, the number of edges that arrive at it — ones scattered by destination into zeros;
    * `recip e`: `1 / max (count, 1)` per node, as a column `[100000, 1]`.
  For a feature array `X` of 64 or 128 columns:
    * `sum64 e X` / `sum128 e X`: for each node, the sum of the rows of `X` at the sources of the edges that arrive at
      it (gather by source, scatter-add by destination);
    * `agg64 e X` / `agg128 e X`: that sum times the node's `recip` — the mean over incoming edges.
  A bias vector is handed to a layer as one row: `biasRow64`, `biasRow128`, `biasRow40`.
  With these the three layers compose: `h1`, `h2`, and the kernel's result `out`.
-/
import proofs.«180650_j13683765805695_1_alg».proof.Proof.Layer0
import proofs.«180650_j13683765805695_1_alg».proof.Proof.Layer1
import proofs.«180650_j13683765805695_1_alg».proof.Proof.Layer2

noncomputable section

namespace Cert.KernelIdeal.Chain

open Cert.KernelIdeal Cert.KernelIdeal.Gen
open Idealize.ShloMosaic Idealize.ShloMosaic.TcCoe

variable {F : FTy → Type} [FloatOps F]

/-! ## The edges -/

def src (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

def dst (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

def dstCol (e : (⟨S2x1600000, .i32⟩ : BufTy).Contents (Elt F)) : (⟨S1600000x1, .i32⟩ : BufTy).Contents (Elt F) :=
  broadcastInDim S1600000x1 ![0] bcast_S1600000_S1600000x1_0 (dst (F := F) e)

def srcCol (e : (⟨S2x1600000, .i32⟩ : BufTy).Contents (Elt F)) : (⟨S1600000x1, .i32⟩ : BufTy).Contents (Elt F) :=
  broadcastInDim S1600000x1 ![0] bcast_S1600000_S1600000x1_0
    (select (cmpi .slt (src (F := F) e) (broadcastInDim S1600000 ![] bcast_S_S1600000 (constantI S_ 32 0#32)))
      (addi (src (F := F) e) (broadcastInDim S1600000 ![] bcast_S_S1600000 (constantI S_ 32 100000#32)))
      (src (F := F) e))

/-! ## The number of edges arriving at a node, and its reciprocal -/

def count (e : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (dstCol (F := F) e)
    (broadcastInDim S1600000 ![] bcast_S_S1600000 (constant S_ .f32 0x3F800000#32))

def recip (e : (⟨S2x1600000, .i32⟩ : BufTy).Contents (Elt F)) : (⟨S100000x1, .f32⟩ : BufTy).Contents (Elt F) :=
  shapeCast _
    (Host.divf (broadcastInDim S100000 ![] bcast_S_S100000 (constant S_ .f32 0x3F800000#32))
      (maximumf (count (F := F) e) (broadcastInDim S100000 ![] bcast_S_S100000 (constant S_ .f32 0x3F800000#32))))
    shapeCasts_S100000_S100000x1

/-! ## Sums and means over incoming edges -/

def sum64 (e : (⟨S2x1600000, .i32⟩ : BufTy).Contents (Elt F)) (X : (⟨S100000x64, .f32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (dstCol (F := F) e)
    (Host.gather gather_S100000x64_S1600000x1_S1600000x64_1_0_n_n_0_1_164 X (srcCol (F := F) e))

def agg64 (e : (⟨S2x1600000, .i32⟩ : BufTy).Contents (Elt F)) (X : (⟨S100000x64, .f32⟩ : BufTy).Contents (Elt F)) :
    (⟨S100000x64, .f32⟩ : BufTy).Contents (Elt F) :=
  mulf (sum64 (F := F) e X) (broadcastInDim S100000x64 ![0, 1] bcast_S100000x1_S100000x64_0_1 (recip (F := F) e))

def sum128 (e : (⟨S2x1600000, .i32⟩ : BufTy).Contents (Elt F)) (X : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (dstCol (F := F) e)
    (Host.gather gather_S100000x128_S1600000x1_S1600000x128_1_0_n_n_0_1_1128 X (srcCol (F := F) e))

def agg128 (e : (⟨S2x1600000, .i32⟩ : BufTy).Contents (Elt F)) (X : (⟨S100000x128, .f32⟩ : BufTy).Contents (Elt F)) :
    (⟨S100000x128, .f32⟩ : BufTy).Contents (Elt F) :=
  mulf (sum128 (F := F) e X) (broadcastInDim S100000x128 ![0, 1] bcast_S100000x1_S100000x128_0_1 (recip (F := F) e))

/-! ## A bias vector as one row -/

def biasRow64 (b : (⟨S64, .f32⟩ : BufTy).Contents (Elt F)) : (⟨S1x64, .f32⟩ : BufTy).Contents (Elt F) :=
  shapeCast _ b shapeCasts_S64_S1x64
def biasRow128 (b : (⟨S128, .f32⟩ : BufTy).Contents (Elt F)) : (⟨S1x128, .f32⟩ : BufTy).Contents (Elt F) :=
  shapeCast _ b shapeCasts_S128_S1x128
def biasRow40 (b : (⟨S40, .f32⟩ : BufTy).Contents (Elt F)) : (⟨S1x40, .f32⟩ : BufTy).Contents (Elt F) :=
  shapeCast _ b shapeCasts_S40_S1x40

/-! ## The three layers composed, at the ideal values -/

/-- The first layer's result: node features `x`, their means over incoming edges, the first layer's parameters. -/
def h1 (x : S100000x64.Idx → EReal) (e : (⟨S2x1600000, .i32⟩ : BufTy).Contents (Elt Ideal))
    (wl0 : S64x64.Idx → EReal) (b0 : S64.Idx → EReal) (wr0 : S64x64.Idx → EReal) : S100000x64.Idx → EReal :=
  Layer0.whole (agg64 (F := Ideal) e x) x wl0 wr0 (biasRow64 (F := Ideal) b0)

/-- The second layer's result. -/
def h2 (x : S100000x64.Idx → EReal) (e : (⟨S2x1600000, .i32⟩ : BufTy).Contents (Elt Ideal))
    (wl0 : S64x64.Idx → EReal) (b0 : S64.Idx → EReal) (wr0 : S64x64.Idx → EReal)
    (wl1 : S64x128.Idx → EReal) (b1 : S128.Idx → EReal) (wr1 : S64x128.Idx → EReal) : S100000x128.Idx → EReal :=
  Layer1.whole (agg64 (F := Ideal) e (h1 x e wl0 b0 wr0)) (h1 x e wl0 b0 wr0) wl1 wr1 (biasRow128 (F := Ideal) b1)

/-- The kernel's result. -/
def out (x : S100000x64.Idx → EReal) (e : (⟨S2x1600000, .i32⟩ : BufTy).Contents (Elt Ideal))
    (wl0 : S64x64.Idx → EReal) (b0 : S64.Idx → EReal) (wr0 : S64x64.Idx → EReal)
    (wl1 : S64x128.Idx → EReal) (b1 : S128.Idx → EReal) (wr1 : S64x128.Idx → EReal)
    (wl2 : S128x40.Idx → EReal) (b2 : S40.Idx → EReal) (wr2 : S128x40.Idx → EReal) : S100000x40.Idx → EReal :=
  Layer2.whole (agg128 (F := Ideal) e (h2 x e wl0 b0 wr0 wl1 b1 wr1)) (h2 x e wl0 b0 wr0 wl1 b1 wr1) wl2 wr2
    (biasRow40 (F := Ideal) b2)

end Cert.KernelIdeal.Chain

end
-- ==== Proof.Walk.lean ====
/-
  What each of the three tiled layers finds in its arrays, and what the kernel's run leaves in its result.

  The run's buffer contents at the six segment boundaries are a fold through the program: a stretch of host operations
  applies its operations' functions; a tiled layer replaces its output array by the layer's whole result (the
  preceding modules) and leaves every other buffer alone.  Nothing after the first stretch writes the edge arrays, the
  per-node reciprocal or a parameter array, so each of these is read back through the fold to the launch memory; the
  two hidden feature arrays are each written once, by the layer before.  Followed through, the result buffer ends at
  the three layers composed: `out` of the eleven argument arrays.
-/
import proofs.«180650_j13683765805695_1_alg».proof.Proof.Gen.KernelIdeal.Frame
import proofs.«180650_j13683765805695_1_alg».proof.Proof.HostChain
import Idealize.ShloMosaic.Lib.StableHlo.Run

set_option maxRecDepth 16384

noncomputable section

namespace Cert.KernelIdeal.Walk

open Cert.KernelIdeal Cert.KernelIdeal.Gen Cert.KernelIdeal.Chain
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-! ## After the first stretch of host operations -/

theorem W1_src : W1 m ρ c (Proc.devRef .tc main_v1) = src (F := Ideal) (m ((c : Thread nD τ).loc main_arg1)) := by
  show StableHlo.after hostOps0 (W0 m ρ c) (Proc.devRef .tc main_v1) = _
  dsimp only [hostOps0]
  after_results_simp
  first | rfl | skip

theorem W1_dst : W1 m ρ c (Proc.devRef .tc main_v3) = dst (F := Ideal) (m ((c : Thread nD τ).loc main_arg1)) := by
  show StableHlo.after hostOps0 (W0 m ρ c) (Proc.devRef .tc main_v3) = _
  dsimp only [hostOps0]
  after_results_simp
  first | rfl | skip

set_option maxHeartbeats 4000000 in
theorem W1_recip : W1 m ρ c (Proc.devRef .tc main_v12) = recip (F := Ideal) (m ((c : Thread nD τ).loc main_arg1)) := by
  show StableHlo.after hostOps0 (W0 m ρ c) (Proc.devRef .tc main_v12) = _
  dsimp only [hostOps0]
  after_results_simp
  first | rfl | skip

set_option maxHeartbeats 4000000 in
theorem W1_agg : W1 m ρ c (Proc.devRef .tc main_v24) = agg64 (F := Ideal) (m ((c : Thread nD τ).loc main_arg1)) (m ((c : Thread nD τ).loc main_arg0)) := by
  show StableHlo.after hostOps0 (W0 m ρ c) (Proc.devRef .tc main_v24) = _
  dsimp only [hostOps0]
  after_results_simp
  first | rfl | skip

theorem W1_x : W1 m ρ c (Proc.devRef .tc main_arg0) = (m ((c : Thread nD τ).loc main_arg0)) := by
  show StableHlo.after hostOps0 (W0 m ρ c) (Proc.devRef .tc main_arg0) = _
  dsimp only [hostOps0]
  after_results_simp
  first | rfl | skip

theorem W1_wl0 : W1 m ρ c (Proc.devRef .tc main_arg2) = (m ((c : Thread nD τ).loc main_arg2)) := by
  show StableHlo.after hostOps0 (W0 m ρ c) (Proc.devRef .tc main_arg2) = _
  dsimp only [hostOps0]
  after_results_simp
  first | rfl | skip

theorem W1_wr0 : W1 m ρ c (Proc.devRef .tc main_arg4) = (m ((c : Thread nD τ).loc main_arg4)) := by
  show StableHlo.after hostOps0 (W0 m ρ c) (Proc.devRef .tc main_arg4) = _
  dsimp only [hostOps0]
  after_results_simp
  first | rfl | skip

theorem W1_b0 : W1 m ρ c (Proc.devRef .tc main_v25) = biasRow64 (F := Ideal) (m ((c : Thread nD τ).loc main_arg3)) := by
  show StableHlo.after hostOps0 (W0 m ρ c) (Proc.devRef .tc main_v25) = _
  dsimp only [hostOps0]
  after_results_simp
  first | rfl | skip

theorem W1_arg5 : W1 m ρ c (Proc.devRef .tc main_arg5) = (m ((c : Thread nD τ).loc main_arg5)) := by
  show StableHlo.after hostOps0 (W0 m ρ c) (Proc.devRef .tc main_arg5) = _
  dsimp only [hostOps0]
  after_results_simp
  first | rfl | skip

theorem W1_arg6 : W1 m ρ c (Proc.devRef .tc main_arg6) = (m ((c : Thread nD τ).loc main_arg6)) := by
  show StableHlo.after hostOps0 (W0 m ρ c) (Proc.devRef .tc main_arg6) = _
  dsimp only [hostOps0]
  after_results_simp
  first | rfl | skip

theorem W1_arg7 : W1 m ρ c (Proc.devRef .tc main_arg7) = (m ((c : Thread nD τ).loc main_arg7)) := by
  show StableHlo.after hostOps0 (W0 m ρ c) (Proc.devRef .tc main_arg7) = _
  dsimp only [hostOps0]
  after_results_simp
  first | rfl | skip

theorem W1_arg8 : W1 m ρ c (Proc.devRef .tc main_arg8) = (m ((c : Thread nD τ).loc main_arg8)) := by
  show StableHlo.after hostOps0 (W0 m ρ c) (Proc.devRef .tc main_arg8) = _
  dsimp only [hostOps0]
  after_results_simp
  first | rfl | skip

theorem W1_arg9 : W1 m ρ c (Proc.devRef .tc main_arg9) = (m ((c : Thread nD τ).loc main_arg9)) := by
  show StableHlo.after hostOps0 (W0 m ρ c) (Proc.devRef .tc main_arg9) = _
  dsimp only [hostOps0]
  after_results_simp
  first | rfl | skip

theorem W1_arg10 : W1 m ρ c (Proc.devRef .tc main_arg10) = (m ((c : Thread nD τ).loc main_arg10)) := by
  show StableHlo.after hostOps0 (W0 m ρ c) (Proc.devRef .tc main_arg10) = _
  dsimp only [hostOps0]
  after_results_simp
  first | rfl | skip

/-! ## The first layer -/

/-- The first layer leaves its whole result in its output array. -/
theorem W2_h1 : W2 m ρ c (Proc.devRef .tc main_v26) = h1 (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 5).trans ((Layer0.final (V1 m ρ) c).trans (by
    show Layer0.whole (W1 m ρ c (Proc.devRef .tc main_v24)) (W1 m ρ c (Proc.devRef .tc main_arg0)) (W1 m ρ c (Proc.devRef .tc main_arg2))
      (W1 m ρ c (Proc.devRef .tc main_arg4)) (W1 m ρ c (Proc.devRef .tc main_v25)) = _
    rw [W1_agg, W1_x, W1_wl0, W1_wr0, W1_b0]
    rfl))

theorem W2_src : W2 m ρ c (Proc.devRef .tc main_v1) = src (F := Ideal) (m ((c : Thread nD τ).loc main_arg1)) :=
  (W2_of_ne m ρ c main_v1 (by decide)).trans (W1_src m ρ c)
theorem W2_dst : W2 m ρ c (Proc.devRef .tc main_v3) = dst (F := Ideal) (m ((c : Thread nD τ).loc main_arg1)) :=
  (W2_of_ne m ρ c main_v3 (by decide)).trans (W1_dst m ρ c)
theorem W2_recip : W2 m ρ c (Proc.devRef .tc main_v12) = recip (F := Ideal) (m ((c : Thread nD τ).loc main_arg1)) :=
  (W2_of_ne m ρ c main_v12 (by decide)).trans (W1_recip m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)

/-! ## After the second stretch of host operations -/

set_option maxHeartbeats 4000000 in
theorem W3_agg : W3 m ρ c (Proc.devRef .tc main_v38) = agg64 (F := Ideal) (m ((c : Thread nD τ).loc main_arg1)) (h1 (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps1 (W2 m ρ c) (Proc.devRef .tc main_v38) = _
  dsimp only [hostOps1]
  after_results_simp
  rw [W2_src, W2_dst, W2_recip, W2_h1]
  first | rfl | skip

theorem W3_h1 : W3 m ρ c (Proc.devRef .tc main_v26) = h1 (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v26) = _
  dsimp only [hostOps1]
  after_results_simp
  rw [W2_h1]
  first | rfl | skip

theorem W3_wl1 : W3 m ρ c (Proc.devRef .tc main_arg5) = (m ((c : Thread nD τ).loc main_arg5)) := by
  show StableHlo.after hostOps1 (W2 m ρ c) (Proc.devRef .tc main_arg5) = _
  dsimp only [hostOps1]
  after_results_simp
  rw [W2_arg5]
  first | rfl | skip

theorem W3_wr1 : W3 m ρ c (Proc.devRef .tc main_arg7) = (m ((c : Thread nD τ).loc main_arg7)) := by
  show StableHlo.after hostOps1 (W2 m ρ c) (Proc.devRef .tc main_arg7) = _
  dsimp only [hostOps1]
  after_results_simp
  rw [W2_arg7]
  first | rfl | skip

theorem W3_b1 : W3 m ρ c (Proc.devRef .tc main_v39) = biasRow128 (F := Ideal) (m ((c : Thread nD τ).loc main_arg6)) := by
  show StableHlo.after hostOps1 (W2 m ρ c) (Proc.devRef .tc main_v39) = _
  dsimp only [hostOps1]
  after_results_simp
  rw [W2_arg6]
  first | rfl | skip

theorem W3_src : W3 m ρ c (Proc.devRef .tc main_v1) = src (F := Ideal) (m ((c : Thread nD τ).loc main_arg1)) := by
  show StableHlo.after hostOps1 (W2 m ρ c) (Proc.devRef .tc main_v1) = _
  dsimp only [hostOps1]
  after_results_simp
  rw [W2_src]
  first | rfl | skip

theorem W3_dst : W3 m ρ c (Proc.devRef .tc main_v3) = dst (F := Ideal) (m ((c : Thread nD τ).loc main_arg1)) := by
  show StableHlo.after hostOps1 (W2 m ρ c) (Proc.devRef .tc main_v3) = _
  dsimp only [hostOps1]
  after_results_simp
  rw [W2_dst]
  first | rfl | skip

theorem W3_recip : W3 m ρ c (Proc.devRef .tc main_v12) = recip (F := Ideal) (m ((c : Thread nD τ).loc main_arg1)) := by
  show StableHlo.after hostOps1 (W2 m ρ c) (Proc.devRef .tc main_v12) = _
  dsimp only [hostOps1]
  after_results_simp
  rw [W2_recip]
  first | rfl | skip

theorem W3_arg8 : W3 m ρ c (Proc.devRef .tc main_arg8) = (m ((c : Thread nD τ).loc main_arg8)) := by
  show StableHlo.after hostOps1 (W2 m ρ c) (Proc.devRef .tc main_arg8) = _
  dsimp only [hostOps1]
  after_results_simp
  rw [W2_arg8]
  first | rfl | skip

theorem W3_arg9 : W3 m ρ c (Proc.devRef .tc main_arg9) = (m ((c : Thread nD τ).loc main_arg9)) := by
  show StableHlo.after hostOps1 (W2 m ρ c) (Proc.devRef .tc main_arg9) = _
  dsimp only [hostOps1]
  after_results_simp
  rw [W2_arg9]
  first | rfl | skip

theorem W3_arg10 : W3 m ρ c (Proc.devRef .tc main_arg10) = (m ((c : Thread nD τ).loc main_arg10)) := by
  show StableHlo.after hostOps1 (W2 m ρ c) (Proc.devRef .tc main_arg10) = _
  dsimp only [hostOps1]
  after_results_simp
  rw [W2_arg10]
  first | rfl | skip

/-! ## The second layer -/

/-- The second layer leaves its whole result in its output array. -/
theorem W4_h2 : W4 m ρ c (Proc.devRef .tc main_v40) = h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 5).trans ((Layer1.final (V3 m ρ) c).trans (by
    show Layer1.whole (W3 m ρ c (Proc.devRef .tc main_v38)) (W3 m ρ c (Proc.devRef .tc main_v26)) (W3 m ρ c (Proc.devRef .tc main_arg5))
      (W3 m ρ c (Proc.devRef .tc main_arg7)) (W3 m ρ c (Proc.devRef .tc main_v39)) = _
    rw [W3_agg, W3_h1, W3_wl1, W3_wr1, W3_b1]
    rfl))

theorem W4_src : W4 m ρ c (Proc.devRef .tc main_v1) = src (F := Ideal) (m ((c : Thread nD τ).loc main_arg1)) :=
  (W4_of_ne m ρ c main_v1 (by decide)).trans (W3_src m ρ c)
theorem W4_dst : W4 m ρ c (Proc.devRef .tc main_v3) = dst (F := Ideal) (m ((c : Thread nD τ).loc main_arg1)) :=
  (W4_of_ne m ρ c main_v3 (by decide)).trans (W3_dst m ρ c)
theorem W4_recip : W4 m ρ c (Proc.devRef .tc main_v12) = recip (F := Ideal) (m ((c : Thread nD τ).loc main_arg1)) :=
  (W4_of_ne m ρ c main_v12 (by decide)).trans (W3_recip m ρ c)
theorem W4_arg8 : W4 m ρ c (Proc.devRef .tc main_arg8) = (m ((c : Thread nD τ).loc main_arg8)) :=
  (W4_of_ne m ρ c main_arg8 (by decide)).trans (W3_arg8 m ρ c)
theorem W4_arg9 : W4 m ρ c (Proc.devRef .tc main_arg9) = (m ((c : Thread nD τ).loc main_arg9)) :=
  (W4_of_ne m ρ c main_arg9 (by decide)).trans (W3_arg9 m ρ c)
theorem W4_arg10 : W4 m ρ c (Proc.devRef .tc main_arg10) = (m ((c : Thread nD τ).loc main_arg10)) :=
  (W4_of_ne m ρ c main_arg10 (by decide)).trans (W3_arg10 m ρ c)

/-! ## After the third stretch of host operations -/

set_option maxHeartbeats 4000000 in
theorem W5_agg : W5 m ρ c (Proc.devRef .tc main_v52) = agg128 (F := Ideal) (m ((c : Thread nD τ).loc main_arg1)) (h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps2 (W4 m ρ c) (Proc.devRef .tc main_v52) = _
  dsimp only [hostOps2]
  after_results_simp
  rw [W4_src, W4_dst, W4_recip, W4_h2]
  first | rfl | skip

theorem W5_h2 : W5 m ρ c (Proc.devRef .tc main_v40) = h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v40) = _
  dsimp only [hostOps2]
  after_results_simp
  rw [W4_h2]
  first | rfl | skip

theorem W5_wl2 : W5 m ρ c (Proc.devRef .tc main_arg8) = (m ((c : Thread nD τ).loc main_arg8)) := by
  show StableHlo.after hostOps2 (W4 m ρ c) (Proc.devRef .tc main_arg8) = _
  dsimp only [hostOps2]
  after_results_simp
  rw [W4_arg8]
  first | rfl | skip

theorem W5_wr2 : W5 m ρ c (Proc.devRef .tc main_arg10) = (m ((c : Thread nD τ).loc main_arg10)) := by
  show StableHlo.after hostOps2 (W4 m ρ c) (Proc.devRef .tc main_arg10) = _
  dsimp only [hostOps2]
  after_results_simp
  rw [W4_arg10]
  first | rfl | skip

theorem W5_b2 : W5 m ρ c (Proc.devRef .tc main_v53) = biasRow40 (F := Ideal) (m ((c : Thread nD τ).loc main_arg9)) := by
  show StableHlo.after hostOps2 (W4 m ρ c) (Proc.devRef .tc main_v53) = _
  dsimp only [hostOps2]
  after_results_simp
  rw [W4_arg9]
  first | rfl | skip

/-! ## The third layer, and the result -/

/-- THE RESULT: at the end of the run the result buffer holds the three layers composed. -/
theorem W6_out : W6 m ρ c (Proc.devRef .tc main_v54) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W6_arr m ρ c 5).trans ((Layer2.final (V5 m ρ) c).trans (by
    show Layer2.whole (W5 m ρ c (Proc.devRef .tc main_v52)) (W5 m ρ c (Proc.devRef .tc main_v40)) (W5 m ρ c (Proc.devRef .tc main_arg8))
      (W5 m ρ c (Proc.devRef .tc main_arg10)) (W5 m ρ c (Proc.devRef .tc main_v53)) = _
    rw [W5_agg, W5_h2, W5_wl2, W5_wr2, W5_b2]
    rfl))

end Cert.KernelIdeal.Walk

end
-- ==== Proof.LibFoldStretch.lean ====
/-
  Two general facts about a straight line of host operations read as a fold over buffer contents, for any program
  signature and any values.

  * The fold over a concatenation of two lines is the fold over the first, then over the second — so a long line can
    be read stretch by stretch, each stretch for ARBITRARY earlier contents (a variable keeps every term small).
  * A typed reference carries its buffer's contents to the value's type and back along one equation of types; the two
    transports undo each other. After the results of a stretch of operations over typed references are rewritten out,
    every intermediate buffer appears as "back ∘ forth" around the operation's value, and these pairs cancel
    syntactically; what is left sits on the stretch's input buffers only, where it is a cast of a variable.
  With both, a stretch of operations outlined from a called function (spelt over typed references) is read as one
  plain function of the few buffers it reads, by: rewrite the results, cancel the pairs, generalize the input
  buffers' contents, and compare.
-/
import Idealize.ShloMosaic.Lib.StableHlo.Run

noncomputable section

namespace Cert.LibFoldStretch

open Idealize.ShloMosaic Idealize.ShloMosaic.StableHlo

variable {τ : Topo} {sig : RefSig} {Val : EltTy → Type}

/-- Folding the operations' results over a concatenation is folding over the first list, then over the second. -/
theorem after_append (xs ys : List (HloOp τ sig Val)) (V : Valuation τ sig Val) :
    after (xs ++ ys) V = after ys (after xs V) := by
  induction xs generalizing V with
  | nil => rfl
  | cons op xs ih => rw [List.cons_append, after_cons, after_cons, ih]

/-- A typed reference's transport to its buffer's type and back is the identity. -/
theorem ofBuf_toBuf {T : BufTy} (x : TRef sig T) (v : T.Contents Val) : x.ofBuf (x.toBuf v) = v := by
  obtain ⟨r, h, h2, h3⟩ := x
  subst h
  rfl

/-- A typed reference's transport from its buffer's type and back is the identity. -/
theorem toBuf_ofBuf {T : BufTy} (x : TRef sig T) (v : x.ref.ty.Contents Val) : x.toBuf (x.ofBuf v) = v := by
  obtain ⟨r, h, h2, h3⟩ := x
  subst h
  rfl

end Cert.LibFoldStretch

end
-- ==== Proof.LibSegment.lean ====
/-
  General lemmas for a graph layer with a per-node scale, at the ideal instance (floats are extended reals, every
  operation exact).  A row gather and a vector gather read at an index (the start index read signed and clamped); the
  row scatter's landing rule (the start index read signed, not clamped, dropped outside); a nonnegative real factor
  moves inside a finite sum of extended reals; and with these, the layer theorem: scaling the gathered rows before
  the scatter-add and the sums after it by the per-node scale is the same as scaling every edge's row by the product
  of the scales of its two ends.  Last, the scale itself: an inverse square root selected where the degree is
  positive, zero elsewhere, is a nonnegative real.
-/
import Idealize.ShloMosaic.Lib.ValueIdx
import Idealize.ShloMosaic.Lib.Pipeline.Value
import Idealize.ShloMosaic.PureOps.Ideal
import Idealize.ShloMosaic.PureOps.Ideal.Laws
import Mathlib.Data.EReal.Operations

noncomputable section

open scoped BigOperators

namespace Cert.LibSegment

open Idealize.ShloMosaic Idealize.ShloMosaic.ValueIdx

/-! ## The three dimension-number records -/

/-- Row gather: operand `[N, C]`, start indices `[E, 1]`, result `[E, C]`; result row `e` is the operand's row at the
    start index `idx[e, 0]`.  The conditions `wf` are decided on a program's literal shapes. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Vector gather: operand `[N]`, start indices `[E, 1]`, result `[E]`; result element `e` is the operand's element at
    the start index `idx[e, 0]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, C]`, scatter indices `[E, 1]`, updates `[E, C]`; update row `e` goes to the operand's row
    `idx[e, 0]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## The gathers read at an index -/

section Gather
variable {α : Type}

/-- THE ROW GATHER READ AT `(e, c)`: the operand at row `idx[e, 0]` (read signed, clamped into `[0, N − 1]`) and
    column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 ⟨min (idx (ix2 e 0)).toInt.toNat (N - 1), by omega⟩ c) := by
  unfold Host.gather
  congr 1
  funext a
  refine Fin.ext ?_
  show (rowGather N E C wf).start (ix2 e c) idx a + (rowGather N E C wf).batchCoord (ix2 e c) a
      + (rowGather N E C wf).offCoord (ix2 e c) a = _
  rw [GatherDims.batchCoord_eq_zero _ _ _ List.not_mem_nil]
  match a with
  | ⟨0, _⟩ =>
    -- the row axis: collapsed, so no offset; the start index, clamped
    rw [GatherDims.offCoord_eq_zero _ _ _
      (fun h => ((GatherDims.mem_sKept _ _).mp h).1 (List.mem_singleton.mpr rfl))]
    simp only [Nat.add_zero]
    unfold GatherDims.start
    rw [dif_pos (show (⟨0, Nat.zero_lt_two⟩ : Fin 2) ∈ (rowGather N E C wf).startIndexMap from
      List.mem_singleton.mpr rfl)]
    have hsi : (rowGather N E C wf).siIdx (ix2 e c)
        ⟨List.idxOf (⟨0, Nat.zero_lt_two⟩ : Fin 2) (rowGather N E C wf).startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis: not in the start index map, so start 0; the offset is the result's column
    unfold GatherDims.start
    rw [dif_neg (by simp)]
    unfold GatherDims.offCoord
    have hk : (⟨1, Nat.one_lt_two⟩ : Fin 2) ∈ (rowGather N E C wf).sKept := by
      rw [GatherDims.mem_sKept]; simp
    rw [dif_pos hk, Nat.add_zero, Nat.zero_add]
    rfl

/-- THE VECTOR GATHER READ AT `e`: the operand at `idx[e, 0]`, read signed and clamped into `[0, N − 1]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0
      + (vecGather N E wf).offCoord (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Where an update row lands -/

section Scatter

/-- The row scatter's start on the row axis for update index `(e, c)`: the scatter index `idx[e, 0]`, read signed. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx ⟨0, Nat.zero_lt_two⟩ = (idx (ix2 e 0)).toInt := by
  unfold ScatterDims.start
  rw [dif_pos (show (⟨0, Nat.zero_lt_two⟩ : Fin 2) ∈ (rowScatter N E C wf).scatterDimsToOperandDims from
    List.mem_singleton.mpr rfl)]
  have hsi : (rowScatter N E C wf).siIdx (ix2 e c)
      ⟨List.idxOf (⟨0, Nat.zero_lt_two⟩ : Fin 2) (rowScatter N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … its window coordinate on the row axis is `0` (the axis is an inserted one) … -/
theorem rowScatter_window0 {N E C : Nat}
    (wf : ScatterDims.WF ⟨2, ![N, C]⟩ ⟨2, ![E, 1]⟩ ⟨2, ![E, C]⟩ [1] [0] [0] 1) (e : Fin E) (c : Fin C) :
    (rowScatter N E C wf).window (ix2 e c) ⟨0, Nat.zero_lt_two⟩ = 0 := by
  unfold ScatterDims.window
  rw [dif_neg (by simp [ScatterDims.sKept, Shape.kept])]

/-- … its start on the column axis is `0` (the scatter index does not name that axis) … -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx ⟨1, Nat.one_lt_two⟩ = 0 := by
  unfold ScatterDims.start
  rw [dif_neg (by simp)]

/-- … and its window coordinate on the column axis is the update's column. -/
theorem rowScatter_window1 {N E C : Nat}
    (wf : ScatterDims.WF ⟨2, ![N, C]⟩ ⟨2, ![E, 1]⟩ ⟨2, ![E, C]⟩ [1] [0] [0] 1) (e : Fin E) (c : Fin C) :
    (rowScatter N E C wf).window (ix2 e c) ⟨1, Nat.one_lt_two⟩ = c.val := by
  unfold ScatterDims.window
  have hk : (⟨1, Nat.one_lt_two⟩ : Fin 2) ∈ (rowScatter N E C wf).sKept := by
    simp [ScatterDims.sKept, Shape.kept]
  rw [dif_pos hk]
  rfl

/-- WHERE AN UPDATE LANDS: update element `(e, c)` of the row scatter lands on operand element `(v, c')` exactly when
    the scatter index `idx[e, 0]`, read signed and not clamped, is `v` and the columns agree. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c c' : Fin C) (v : Fin N) :
    (rowScatter N E C wf).resultIdx? (ix2 e c) idx = some (ix2 v c')
      ↔ (idx (ix2 e 0)).toInt = (v.val : Int) ∧ c = c' := by
  have hs0 := rowScatter_start0 wf idx e c
  have hw0 := rowScatter_window0 wf e c
  have hs1 := rowScatter_start1 wf idx e c
  have hw1 := rowScatter_window1 wf e c
  unfold ScatterDims.resultIdx?
  constructor
  · intro h
    split at h
    · rename_i hin
      have hf := Option.some.inj h
      have h0 := congrArg (fun f => (f ⟨0, Nat.zero_lt_two⟩).val) hf
      have h1 := congrArg (fun f => (f ⟨1, Nat.one_lt_two⟩).val) hf
      have hin0 := (hin ⟨0, Nat.zero_lt_two⟩).1
      simp only [hs0, hw0, hs1, hw1] at h0 h1 hin0
      change ((idx (ix2 e 0)).toInt + ((0 : Nat) : Int)).toNat = v.val at h0
      change (0 + (c.val : Int)).toNat = c'.val at h1
      refine ⟨by omega, Fin.ext (by omega)⟩
    · exact absurd h (by simp)
  · rintro ⟨hv, rfl⟩
    have hin : ∀ a : Fin 2, 0 ≤ (rowScatter N E C wf).start (ix2 e c) idx a + (rowScatter N E C wf).window (ix2 e c) a ∧
        (rowScatter N E C wf).start (ix2 e c) idx a + (rowScatter N E C wf).window (ix2 e c) a
          < ((⟨2, ![N, C]⟩ : Shape).size a : Nat) := by
      intro a
      match a with
      | ⟨0, _⟩ =>
        rw [hs0, hw0, hv]
        have := v.isLt
        change 0 ≤ (v.val : Int) + ((0 : Nat) : Int) ∧ (v.val : Int) + ((0 : Nat) : Int) < (N : Int)
        omega
      | ⟨1, _⟩ =>
        rw [hs1, hw1]
        have := c.isLt
        change 0 ≤ (0 : Int) + (c.val : Int) ∧ (0 : Int) + (c.val : Int) < (C : Int)
        omega
    rw [dif_pos hin]
    congr 1
    funext a
    refine Fin.ext ?_
    match a with
    | ⟨0, _⟩ =>
      change ((rowScatter N E C wf).start (ix2 e c) idx ⟨0, Nat.zero_lt_two⟩
        + ((rowScatter N E C wf).window (ix2 e c) ⟨0, Nat.zero_lt_two⟩ : Nat)).toNat = v.val
      rw [hs0, hw0, hv]; omega
    | ⟨1, _⟩ =>
      change ((rowScatter N E C wf).start (ix2 e c) idx ⟨1, Nat.one_lt_two⟩
        + ((rowScatter N E C wf).window (ix2 e c) ⟨1, Nat.one_lt_two⟩ : Nat)).toNat = c.val
      rw [hs1, hw1]; omega

end Scatter

/-! ## A nonnegative real factor and a finite sum of extended reals -/

section Sum

/-- A NONNEGATIVE REAL FACTOR MOVES INSIDE A FINITE SUM of extended reals: `r · Σ f = Σ r · f` for `0 ≤ r` real. No
    term need be finite: multiplication by a nonnegative finite factor distributes over every sum of two extended
    reals. -/
theorem mul_sum_of_nonneg {ι : Type*} (r : ℝ) (hr : 0 ≤ r) (s : Finset ι) (f : ι → EReal) :
    (r : EReal) * ∑ j ∈ s, f j = ∑ j ∈ s, (r : EReal) * f j := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

end Sum

/-! ## Two broadcasts read at an index -/

section Broadcast
variable {α : Type}

/-- A vector `[n]` broadcast to a column `[n, 1]`, read at `(a, 0)`: the vector's element `a`. -/
theorem colBroadcast_apply {n : Nat}
    (h : (⟨1, ![n]⟩ : Shape).BroadcastsInDim ⟨2, ![n, 1]⟩ (![0] : Fin 1 → Fin 2))
    (x : (⟨1, ![n]⟩ : Shape).Idx → α) (a : Fin n) (z : Fin 1) :
    broadcastInDim ⟨2, ![n, 1]⟩ ![0] h x (ix2 a z) = x (ix1 a) := by
  refine broadcastInDim_apply _ h x _ _ ?_
  intro b
  obtain rfl : b = 0 := Subsingleton.elim _ _
  show a.val = if n = 1 then 0 else a.val
  have := a.isLt
  split <;> omega

/-- A column `[n, 1]` broadcast along rows to `[n, m]`, read at `(a, b)`: the column's element `(a, 0)`. -/
theorem rowBroadcast_apply {n m : Nat}
    (h : (⟨2, ![n, 1]⟩ : Shape).BroadcastsInDim ⟨2, ![n, m]⟩ (![0, 1] : Fin 2 → Fin 2))
    (x : (⟨2, ![n, 1]⟩ : Shape).Idx → α) (a : Fin n) (b : Fin m) :
    broadcastInDim ⟨2, ![n, m]⟩ ![0, 1] h x (ix2 a b) = x (ix2 a 0) := by
  refine broadcastInDim_apply _ h x _ _ ?_
  intro d
  match d with
  | ⟨0, _⟩ =>
    show a.val = if n = 1 then 0 else a.val
    have := a.isLt
    split <;> omega
  | ⟨1, _⟩ => rfl

/-- The two together: a vector `[n]` broadcast to `[n, m]` through a column, read at `(a, b)`, is its element `a`. -/
theorem vecBroadcast_apply {n m : Nat}
    (h1 : (⟨1, ![n]⟩ : Shape).BroadcastsInDim ⟨2, ![n, 1]⟩ (![0] : Fin 1 → Fin 2))
    (h2 : (⟨2, ![n, 1]⟩ : Shape).BroadcastsInDim ⟨2, ![n, m]⟩ (![0, 1] : Fin 2 → Fin 2))
    (x : (⟨1, ![n]⟩ : Shape).Idx → α) (a : Fin n) (b : Fin m) :
    broadcastInDim ⟨2, ![n, m]⟩ ![0, 1] h2 (broadcastInDim ⟨2, ![n, 1]⟩ ![0] h1 x) (ix2 a b) = x (ix1 a) := by
  rw [rowBroadcast_apply, colBroadcast_apply]

end Broadcast

/-! ## Normalizing an index -/

section Normalize

/-- NORMALIZING AN INDEX, `x < 0 ? x + n : x` with the comparison signed, leaves a nonnegative one alone. -/
theorem normalize_of_nonneg {s : Shape} (x zeros n : IVec s 32) (hz : ∀ i, zeros i = 0#32) (i : s.Idx)
    (h : 0 ≤ (x i).toInt) : select (cmpi .slt x zeros) (addi x n) x i = x i := by
  show Scalar.select (IntOp.cmpi .slt (x i) (zeros i)) (addi x n i) (x i) = x i
  have hc : IntOp.cmpi .slt (x i) (zeros i) = 0#1 := by
    have hlt : (x i).slt 0#32 = false := by
      rw [BitVec.slt, decide_eq_false_iff_not, BitVec.toInt_zero]; exact not_lt.mpr h
    rw [hz]; unfold IntOp.cmpi; simp only [hlt]; rfl
  rw [hc, select_zero]

/-- The same with the zero and the addend the broadcast integer scalars `0` and `k`, as a program writes
    `v < 0 ? v + k : v` over an index vector: a nonnegative index is left alone, whatever `k` is. -/
theorem normalize_const_of_nonneg {E : Nat} (v : IVec ⟨1, ![E]⟩ 32) (k : BitVec 32)
    (h0 : (⟨0, ![]⟩ : Shape).BroadcastsInDim ⟨1, ![E]⟩ (![] : Fin 0 → Fin 1))
    (e : (⟨1, ![E]⟩ : Shape).Idx) (h : 0 ≤ (v e).toInt) :
    select (cmpi .slt v (broadcastInDim ⟨1, ![E]⟩ ![] h0 (constantI ⟨0, ![]⟩ 32 0#32)))
      (addi v (broadcastInDim ⟨1, ![E]⟩ ![] h0 (constantI ⟨0, ![]⟩ 32 k))) v e = v e :=
  normalize_of_nonneg v _ _ (fun _ => rfl) e h

end Normalize

/-! ## The layer: a per-node scale before and after the scatter-add, or per edge -/

section Layer

/-- THE LAYER THEOREM.  `H : [N, C]` node features, `D : [N]` a per-node scale that is everywhere a nonnegative real,
    `src'`, `dst`, `dst'` : `[E]` edge ends, `dst'` agreeing with `dst` wherever `dst` is nonnegative.  Scaling the rows
    of `H` by `D`, gathering the source rows, scatter-adding them at `dst` onto `Z` and scaling the result's rows by
    `D` again, is scatter-adding, onto the scaled `Z`, the gathered rows of `H` each scaled by the product of `D` at the
    edge's two ends (both read through the clamping gather, the second at `dst'`).  For an update that lands on row
    `v` the scatter index is `v` itself, `0 ≤ v < N`, so `dst'` is `dst` there and the clamp leaves it alone: the second
    factor is `D v`, the common nonnegative real factor, which moves inside the sum. -/
theorem layer_eq {N E C : Nat} (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H Z : (⟨2, ![N, C]⟩ : Shape).Idx → EReal) (D : (⟨1, ![N]⟩ : Shape).Idx → EReal)
    (hD : ∀ i, ∃ r : ℝ, 0 ≤ r ∧ D i = (r : EReal))
    (src' dst dst' : IVec ⟨1, ![E]⟩ 32)
    (hdst : ∀ e, 0 ≤ (dst e).toInt → dst' e = dst e)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (hi hi' : (⟨1, ![E]⟩ : Shape).BroadcastsInDim ⟨2, ![E, 1]⟩ (![0] : Fin 1 → Fin 2))
    (he2 : (⟨2, ![E, 1]⟩ : Shape).BroadcastsInDim ⟨2, ![E, C]⟩ (![0, 1] : Fin 2 → Fin 2)) :
    mulf (F := Ideal) (φ := .f32)
        (broadcastInDim ⟨2, ![N, C]⟩ ![0, 1] h2 (broadcastInDim ⟨2, ![N, 1]⟩ ![0] h1 D))
        (Host.scatterAdd (F := Ideal) (φ := .f32) (rowScatter N E C wfs) Z
          (broadcastInDim ⟨2, ![E, 1]⟩ ![0] hi dst)
          (Host.gather (rowGather N E C wfg)
            (mulf (F := Ideal) (φ := .f32) H
              (broadcastInDim ⟨2, ![N, C]⟩ ![0, 1] h2 (broadcastInDim ⟨2, ![N, 1]⟩ ![0] h1 D)))
            (broadcastInDim ⟨2, ![E, 1]⟩ ![0] hi src')))
      = Host.scatterAdd (F := Ideal) (φ := .f32) (rowScatter N E C wfs)
          (mulf (F := Ideal) (φ := .f32)
            (broadcastInDim ⟨2, ![N, C]⟩ ![0, 1] h2 (broadcastInDim ⟨2, ![N, 1]⟩ ![0] h1 D)) Z)
          (broadcastInDim ⟨2, ![E, 1]⟩ ![0] hi dst)
          (mulf (F := Ideal) (φ := .f32)
            (Host.gather (rowGather N E C wfg) H (broadcastInDim ⟨2, ![E, 1]⟩ ![0] hi src'))
            (broadcastInDim ⟨2, ![E, C]⟩ ![0, 1] he2 (broadcastInDim ⟨2, ![E, 1]⟩ ![0] hi'
              (mulf (F := Ideal) (φ := .f32)
                (Host.gather (vecGather N E wfv) D (broadcastInDim ⟨2, ![E, 1]⟩ ![0] hi src'))
                (Host.gather (vecGather N E wfv) D (broadcastInDim ⟨2, ![E, 1]⟩ ![0] hi dst')))))) := by
  funext i
  obtain ⟨v, c, rfl⟩ : ∃ (v : Fin N) (c : Fin C), i = ix2 v c := ⟨i 0, i 1, eq_ix2 i⟩
  obtain ⟨r, hr, hDv⟩ := hD (ix1 v)
  simp only [mulf_apply, Host.scatterAdd, Ideal.hostScatterAdd_def, Ideal.hostScatterAdd]
  rw [vecBroadcast_apply h1 h2 D v c, hDv, EReal.left_distrib_of_nonneg_of_ne_top (EReal.coe_nonneg.mpr hr) (EReal.coe_ne_top r),
    mul_sum_of_nonneg r hr]
  congr 1
  refine Finset.sum_congr rfl ?_
  intro j hj
  obtain ⟨e, c', rfl⟩ : ∃ (e : Fin E) (c' : Fin C), j = ix2 e c' := ⟨j 0, j 1, eq_ix2 j⟩
  obtain ⟨hl, rfl⟩ := (rowScatter_lands wfs _ e c' c v).mp (Finset.mem_filter.mp hj).2
  -- the update lands on row `v`: the scatter index is `v`, so `dst'` is `dst` here and the clamp leaves it alone
  rw [colBroadcast_apply hi dst e 0] at hl
  have hd' : dst' (ix1 e) = dst (ix1 e) := hdst _ (by rw [hl]; exact Int.natCast_nonneg _)
  have hb : broadcastInDim ⟨2, ![E, 1]⟩ ![0] hi dst' (ix2 e 0) = dst (ix1 e) :=
    (colBroadcast_apply hi dst' e 0).trans hd'
  have hg' : ∀ h, (⟨min (broadcastInDim ⟨2, ![E, 1]⟩ ![0] hi dst' (ix2 e 0)).toInt.toNat (N - 1), h⟩ : Fin N) = v :=
    fun h => Fin.ext (by
      show min (broadcastInDim ⟨2, ![E, 1]⟩ ![0] hi dst' (ix2 e 0)).toInt.toNat (N - 1) = v.val
      rw [hb, hl]; have := v.isLt; omega)
  rw [rowGather_apply hN wfg _ _ e c', rowGather_apply hN wfg H _ e c', vecBroadcast_apply hi' he2 _ e c',
    mulf_apply, mulf_apply, vecGather_apply hN wfv D _ e, vecGather_apply hN wfv D _ e,
    vecBroadcast_apply h1 h2 D _ c', hg', hDv]
  -- `r · (h · d) = h · (d · r)`
  rw [mul_left_comm, mul_comm (r : EReal)]

/-- The layer theorem with the scaled features narrowed to `bf16` before the gather and the gathered rows widened
    back to `f32` after it: on extended reals both format changes are the identity, so this is `layer_eq`. -/
theorem layer_eq_conv {N E C : Nat} (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H Z : (⟨2, ![N, C]⟩ : Shape).Idx → EReal) (D : (⟨1, ![N]⟩ : Shape).Idx → EReal)
    (hD : ∀ i, ∃ r : ℝ, 0 ≤ r ∧ D i = (r : EReal))
    (src' dst dst' : IVec ⟨1, ![E]⟩ 32)
    (hdst : ∀ e, 0 ≤ (dst e).toInt → dst' e = dst e)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (hi hi' : (⟨1, ![E]⟩ : Shape).BroadcastsInDim ⟨2, ![E, 1]⟩ (![0] : Fin 1 → Fin 2))
    (he2 : (⟨2, ![E, 1]⟩ : Shape).BroadcastsInDim ⟨2, ![E, C]⟩ (![0, 1] : Fin 2 → Fin 2))
    (hlt : FTy.bf16.bits < FTy.f32.bits) (hlt' : FTy.bf16.bits < FTy.f32.bits) :
    mulf (F := Ideal) (φ := .f32)
        (broadcastInDim ⟨2, ![N, C]⟩ ![0, 1] h2 (broadcastInDim ⟨2, ![N, 1]⟩ ![0] h1 D))
        (Host.scatterAdd (F := Ideal) (φ := .f32) (rowScatter N E C wfs) Z
          (broadcastInDim ⟨2, ![E, 1]⟩ ![0] hi dst)
          (extf (F := Ideal) .f32
            (Host.gather (rowGather N E C wfg)
              (truncf (F := Ideal) .bf16
                (mulf (F := Ideal) (φ := .f32) H
                  (broadcastInDim ⟨2, ![N, C]⟩ ![0, 1] h2 (broadcastInDim ⟨2, ![N, 1]⟩ ![0] h1 D))) hlt)
              (broadcastInDim ⟨2, ![E, 1]⟩ ![0] hi src')) hlt'))
      = Host.scatterAdd (F := Ideal) (φ := .f32) (rowScatter N E C wfs)
          (mulf (F := Ideal) (φ := .f32)
            (broadcastInDim ⟨2, ![N, C]⟩ ![0, 1] h2 (broadcastInDim ⟨2, ![N, 1]⟩ ![0] h1 D)) Z)
          (broadcastInDim ⟨2, ![E, 1]⟩ ![0] hi dst)
          (mulf (F := Ideal) (φ := .f32)
            (Host.gather (rowGather N E C wfg) H (broadcastInDim ⟨2, ![E, 1]⟩ ![0] hi src'))
            (broadcastInDim ⟨2, ![E, C]⟩ ![0, 1] he2 (broadcastInDim ⟨2, ![E, 1]⟩ ![0] hi'
              (mulf (F := Ideal) (φ := .f32)
                (Host.gather (vecGather N E wfv) D (broadcastInDim ⟨2, ![E, 1]⟩ ![0] hi src'))
                (Host.gather (vecGather N E wfv) D (broadcastInDim ⟨2, ![E, 1]⟩ ![0] hi dst')))))) :=
  layer_eq hN wfg wfv wfs H Z D hD src' dst dst' hdst h1 h2 hi hi' he2

/-- A product with an array of zeros is that array: `x · 0 = 0` for every extended real `x`, the infinities included. -/
theorem mulf_zeros {s : Shape} {φ : FTy} (A Z : s.Idx → EReal) (hZ : ∀ i, Z i = 0) :
    mulf (F := Ideal) (φ := φ) A Z = Z := by
  funext i
  rw [mulf_apply, hZ i, mul_zero]

/-- The layer theorem (with the format changes around the gather) over an operand of zeros: the same operand on both
    sides. -/
theorem layer_eq_conv_zero {N E C : Nat} (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H Z : (⟨2, ![N, C]⟩ : Shape).Idx → EReal) (hZ : ∀ i, Z i = 0) (D : (⟨1, ![N]⟩ : Shape).Idx → EReal)
    (hD : ∀ i, ∃ r : ℝ, 0 ≤ r ∧ D i = (r : EReal))
    (src' dst dst' : IVec ⟨1, ![E]⟩ 32)
    (hdst : ∀ e, 0 ≤ (dst e).toInt → dst' e = dst e)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (hi hi' : (⟨1, ![E]⟩ : Shape).BroadcastsInDim ⟨2, ![E, 1]⟩ (![0] : Fin 1 → Fin 2))
    (he2 : (⟨2, ![E, 1]⟩ : Shape).BroadcastsInDim ⟨2, ![E, C]⟩ (![0, 1] : Fin 2 → Fin 2))
    (hlt : FTy.bf16.bits < FTy.f32.bits) (hlt' : FTy.bf16.bits < FTy.f32.bits) :
    mulf (F := Ideal) (φ := .f32)
        (broadcastInDim ⟨2, ![N, C]⟩ ![0, 1] h2 (broadcastInDim ⟨2, ![N, 1]⟩ ![0] h1 D))
        (Host.scatterAdd (F := Ideal) (φ := .f32) (rowScatter N E C wfs) Z
          (broadcastInDim ⟨2, ![E, 1]⟩ ![0] hi dst)
          (extf (F := Ideal) .f32
            (Host.gather (rowGather N E C wfg)
              (truncf (F := Ideal) .bf16
                (mulf (F := Ideal) (φ := .f32) H
                  (broadcastInDim ⟨2, ![N, C]⟩ ![0, 1] h2 (broadcastInDim ⟨2, ![N, 1]⟩ ![0] h1 D))) hlt)
              (broadcastInDim ⟨2, ![E, 1]⟩ ![0] hi src')) hlt'))
      = Host.scatterAdd (F := Ideal) (φ := .f32) (rowScatter N E C wfs) Z
          (broadcastInDim ⟨2, ![E, 1]⟩ ![0] hi dst)
          (mulf (F := Ideal) (φ := .f32)
            (Host.gather (rowGather N E C wfg) H (broadcastInDim ⟨2, ![E, 1]⟩ ![0] hi src'))
            (broadcastInDim ⟨2, ![E, C]⟩ ![0, 1] he2 (broadcastInDim ⟨2, ![E, 1]⟩ ![0] hi'
              (mulf (F := Ideal) (φ := .f32)
                (Host.gather (vecGather N E wfv) D (broadcastInDim ⟨2, ![E, 1]⟩ ![0] hi src'))
                (Host.gather (vecGather N E wfv) D (broadcastInDim ⟨2, ![E, 1]⟩ ![0] hi dst')))))) := by
  rw [layer_eq_conv hN wfg wfv wfs H Z D hD src' dst dst' hdst h1 h2 hi hi' he2 hlt hlt', mulf_zeros _ Z hZ]

end Layer

/-! ## The scale: an inverse square root where the degree is positive, zero elsewhere -/

section Scale

/-- The inverse square root of a positive extended real is a nonnegative real (`0` at `⊤`, `(√x)⁻¹` at a real `x`). -/
theorem rsqrt_nonneg_of_pos (d : EReal) (hd : 0 < d) : ∃ r : ℝ, 0 ≤ r ∧ Ideal.rsqrt d = (r : EReal) := by
  induction d using EReal.rec with
  | bot => exact absurd hd (not_lt_bot)
  | top => exact ⟨0, le_refl 0, by rw [Ideal.rsqrt_top]; rfl⟩
  | coe x =>
    have hx : 0 < x := EReal.coe_pos.mp hd
    refine ⟨(Real.sqrt x)⁻¹, inv_nonneg.mpr (Real.sqrt_nonneg x), ?_⟩
    rw [Ideal.rsqrt_coe, if_neg (not_lt.mpr hx.le), if_neg (ne_of_gt hx)]

/-- ONE ELEMENT OF THE SCALE: the inverse square root of `d` selected where `d > 0`, a zero elsewhere, is a nonnegative
    real — for every extended real `d`, the infinities and the negative reals included. -/
theorem dinv_nonneg (d z0 z : EReal) (hz0 : z0 = 0) (hz : z = 0) :
    ∃ r : ℝ, 0 ≤ r ∧ Scalar.select (Scalar.cmpf (F := Ideal) (φ := .f32) .ogt d z0) (Ideal.rsqrt d) z = (r : EReal) := by
  subst hz0 hz
  by_cases hd : (0 : EReal) < d
  · obtain ⟨r, hr, he⟩ := rsqrt_nonneg_of_pos d hd
    refine ⟨r, hr, ?_⟩
    have hc : Scalar.cmpf (F := Ideal) (φ := .f32) .ogt d 0 = 1#1 := by
      rw [Ideal.scalar_cmpf_def]; unfold Ideal.cmp; simp [hd]
    rw [hc, select_one, he]
  · refine ⟨0, le_refl 0, ?_⟩
    have hc : Scalar.cmpf (F := Ideal) (φ := .f32) .ogt d 0 = 0#1 := by
      rw [Ideal.scalar_cmpf_def]; unfold Ideal.cmp; simp [hd]
    rw [hc, select_zero]; rfl

/-- THE SCALE IS A NONNEGATIVE REAL EVERYWHERE: `select (deg > 0) (rsqrt deg) 0` over any shape. -/
theorem dinv_nonneg_vec {s : Shape} (deg zeros zeros' : s.Idx → EReal)
    (hz : ∀ i, zeros i = 0) (hz' : ∀ i, zeros' i = 0) (i : s.Idx) :
    ∃ r : ℝ, 0 ≤ r ∧ select (cmpf (F := Ideal) (φ := .f32) .ogt deg zeros)
      (Host.rsqrt (F := Ideal) (φ := .f32) deg) zeros' i = (r : EReal) :=
  dinv_nonneg (deg i) (zeros i) (zeros' i) (hz i) (hz' i)

/-- The `f32` zero scalar broadcast to any shape reads `0` everywhere. -/
theorem zeros_apply {t : Shape} (h : (⟨0, ![]⟩ : Shape).BroadcastsInDim t (![] : Fin 0 → Fin t.rank)) (i : t.Idx) :
    broadcastInDim t ![] h (constant (F := Ideal) ⟨0, ![]⟩ .f32 0x00000000#32) i = (0 : EReal) :=
  Ideal.ofBits_zero_f32

/-- The scale with its two zero arrays the broadcast `f32` zero scalar, as a program writes
    `where(deg > 0, rsqrt(deg), 0)`. -/
theorem dinv_nonneg_zeros {s : Shape} (deg : s.Idx → EReal)
    (h h' : (⟨0, ![]⟩ : Shape).BroadcastsInDim s (![] : Fin 0 → Fin s.rank)) (i : s.Idx) :
    ∃ r : ℝ, 0 ≤ r ∧ select
      (cmpf (F := Ideal) (φ := .f32) .ogt deg (broadcastInDim s ![] h (constant (F := Ideal) ⟨0, ![]⟩ .f32 0x00000000#32)))
      (Host.rsqrt (F := Ideal) (φ := .f32) deg)
      (broadcastInDim s ![] h' (constant (F := Ideal) ⟨0, ![]⟩ .f32 0x00000000#32)) i = (r : EReal) :=
  dinv_nonneg_vec deg _ _ (zeros_apply h) (zeros_apply h') i

/-- The same with the second zero scalar passed through an identity conversion before its broadcast. -/
theorem dinv_nonneg_where {s : Shape} (deg : s.Idx → EReal)
    (h h' : (⟨0, ![]⟩ : Shape).BroadcastsInDim s (![] : Fin 0 → Fin s.rank)) (i : s.Idx) :
    ∃ r : ℝ, 0 ≤ r ∧ select
      (cmpf (F := Ideal) (φ := .f32) .ogt deg (broadcastInDim s ![] h (constant (F := Ideal) ⟨0, ![]⟩ .f32 0x00000000#32)))
      (Host.rsqrt (F := Ideal) (φ := .f32) deg)
      (broadcastInDim s ![] h' (id (constant (F := Ideal) ⟨0, ![]⟩ .f32 0x00000000#32))) i = (r : EReal) :=
  dinv_nonneg_zeros deg h h' i

end Scale

end Cert.LibSegment

end
-- ==== Proof.LibDegree.lean ====
/-
  General lemmas about counting the edges that arrive at a node, at the ideal instance (floats are extended reals,
  every operation exact), free of any program.

  A mean over incoming edges divides a node's sum by the number of edges that arrive at it (or by one where none
  does).  Two programs may count those edges differently: a scatter-add of a FLAT array of ones `[E]` into `[N]`, or a
  scatter-add of a COLUMN of ones `[E, 1]` into `[N, 1]`; and they may divide by the count, or multiply by its
  reciprocal.  Here:
    * where an update of the flat scatter lands (its start index read signed, not clamped, dropped outside);
    * the flat and the column scatter-add of the same two constants (one for every operand entry, one for every
      update) agree, node by node: the updates that land on node `v` are, in both, the edges whose index is `v`;
    * a scatter-add of ones into zeros holds a natural number at every entry;
    * for a natural number `n`, `max n 1` is a nonzero real, so multiplying by `1 / max n 1` is dividing by
      `max n 1`, on every extended real.
-/
import Idealize.ShloMosaic.Lib.ValueIdx
import Idealize.ShloMosaic.PureOps.Ideal
import Mathlib.Data.EReal.Operations
import proofs.«180650_j13683765805695_1_alg».proof.Proof.LibSegment

noncomputable section

open scoped BigOperators

namespace Cert.LibDegree

open Idealize.ShloMosaic Idealize.ShloMosaic.ValueIdx Cert.LibSegment

/-! ## The flat scatter -/

/-- Flat scatter: operand `[N]`, scatter indices `[E, 1]`, updates `[E]`; update `e` goes to the operand's entry
    `idx[e, 0]`.  There is no window axis: the operand's one axis is an inserted one. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The flat scatter's start for update `e`: the scatter index `idx[e, 0]`, read signed. -/
theorem vecScatter_start0 {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx ⟨0, Nat.one_pos⟩ = (idx (ix2 e 0)).toInt := by
  unfold ScatterDims.start
  rw [dif_pos (show (⟨0, Nat.one_pos⟩ : Fin 1) ∈ (vecScatter N E wf).scatterDimsToOperandDims from
    List.mem_singleton.mpr rfl)]
  have hsi : (vecScatter N E wf).siIdx (ix1 e)
      ⟨List.idxOf (⟨0, Nat.one_pos⟩ : Fin 1) (vecScatter N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and its window coordinate is `0`: the operand's one axis is inserted. -/
theorem vecScatter_window0 {N E : Nat}
    (wf : ScatterDims.WF ⟨1, ![N]⟩ ⟨2, ![E, 1]⟩ ⟨1, ![E]⟩ [] [0] [0] 1) (e : Fin E) :
    (vecScatter N E wf).window (ix1 e) ⟨0, Nat.one_pos⟩ = 0 := by
  unfold ScatterDims.window
  rw [dif_neg (by simp [ScatterDims.sKept, Shape.kept])]

/-- WHERE AN UPDATE LANDS: update `e` of the flat scatter lands on operand entry `v` exactly when the scatter index
    `idx[e, 0]`, read signed and not clamped, is `v`. -/
theorem vecScatter_lands {N E w : Nat}
    (wf : ScatterDims.WF ⟨1, ![N]⟩ ⟨2, ![E, 1]⟩ ⟨1, ![E]⟩ [] [0] [0] 1)
    (idx : IVec ⟨2, ![E, 1]⟩ w) (e : Fin E) (v : Fin N) :
    (vecScatter N E wf).resultIdx? (ix1 e) idx = some (ix1 v) ↔ (idx (ix2 e 0)).toInt = (v.val : Int) := by
  have hs0 := vecScatter_start0 wf idx e
  have hw0 := vecScatter_window0 wf e
  unfold ScatterDims.resultIdx?
  constructor
  · intro h
    split at h
    · have hf := Option.some.inj h
      have h0 := congrArg (fun f => (f ⟨0, Nat.one_pos⟩).val) hf
      simp only [hs0, hw0] at h0
      rename_i hin
      have hin0 := (hin ⟨0, Nat.one_pos⟩).1
      simp only [hs0, hw0] at hin0
      change ((idx (ix2 e 0)).toInt + ((0 : Nat) : Int)).toNat = v.val at h0
      omega
    · exact absurd h (by simp)
  · intro hv
    have hin : ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Nat) := by
      intro a
      match a with
      | ⟨0, _⟩ =>
        rw [hs0, hw0, hv]
        have := v.isLt
        change 0 ≤ (v.val : Int) + ((0 : Nat) : Int) ∧ (v.val : Int) + ((0 : Nat) : Int) < (N : Int)
        omega
    rw [dif_pos hin]
    congr 1
    funext a
    refine Fin.ext ?_
    match a with
    | ⟨0, _⟩ =>
      change ((vecScatter N E wf).start (ix1 e) idx ⟨0, Nat.one_pos⟩
        + ((vecScatter N E wf).window (ix1 e) ⟨0, Nat.one_pos⟩ : Nat)).toNat = v.val
      rw [hs0, hw0, hv]; omega

/-! ## The flat count is the column count -/

/-- A scatter-add of one constant `u` per update into one constant `z` per entry gives node `v` the same value whether
    the updates are a flat array `[E]` scattered into `[N]` or a column `[E, 1]` scattered into `[N, 1]`: in both the
    updates that land on `v` are the edges whose index, read signed, is `v`. -/
theorem flat_eq_column {N E w : Nat}
    (wfV : ScatterDims.WF ⟨1, ![N]⟩ ⟨2, ![E, 1]⟩ ⟨1, ![E]⟩ [] [0] [0] 1)
    (wfR : ScatterDims.WF ⟨2, ![N, 1]⟩ ⟨2, ![E, 1]⟩ ⟨2, ![E, 1]⟩ [1] [0] [0] 1)
    (idx : IVec ⟨2, ![E, 1]⟩ w) (z u : EReal) (v : Fin N) :
    Ideal.hostScatterAdd (vecScatter N E wfV) (fun _ => z) idx (fun _ => u) (ix1 v)
      = Ideal.hostScatterAdd (rowScatter N E 1 wfR) (fun _ => z) idx (fun _ => u) (ix2 v 0) := by
  unfold Ideal.hostScatterAdd
  refine congrArg (z + ·) ?_
  refine Finset.sum_nbij' (fun j => ix2 (j 0) 0) (fun k => ix1 (k 0)) ?_ ?_ ?_ ?_ ?_
  · intro j hj
    rw [Finset.mem_filter] at hj ⊢
    refine ⟨Finset.mem_univ _, ?_⟩
    have hj' := hj.2
    rw [eq_ix1 j] at hj'
    exact (rowScatter_lands wfR idx (j 0) 0 0 v).2 ⟨(vecScatter_lands wfV idx (j 0) v).1 hj', rfl⟩
  · intro k hk
    rw [Finset.mem_filter] at hk ⊢
    refine ⟨Finset.mem_univ _, ?_⟩
    have hk' := hk.2
    rw [eq_ix2 k] at hk'
    have h1 := ((rowScatter_lands wfR idx (k 0) (k 1) 0 v).1 hk').1
    exact (vecScatter_lands wfV idx (k 0) v).2 h1
  · intro j _
    exact (eq_ix1 j).symm
  · intro k _
    funext a
    refine Fin.ext ?_
    match a with
    | ⟨0, _⟩ => rfl
    | ⟨1, _⟩ =>
      show (0 : Nat) = (k ⟨1, Nat.one_lt_two⟩).val
      have h : (k ⟨1, Nat.one_lt_two⟩).val < 1 := (k ⟨1, Nat.one_lt_two⟩).isLt
      omega
  · intro j _
    rfl

/-! ## A count is a natural number -/

/-- Adding the extended real one to itself `n` times gives the real number `n`. -/
theorem nsmul_one (n : ℕ) : n • (1 : EReal) = ((n : ℝ) : EReal) := by
  induction n with
  | zero => simp
  | succ k ih => rw [succ_nsmul, ih, Nat.cast_succ, EReal.coe_add, EReal.coe_one]

/-- Zero plus a sum of ones over a finite set is the set's number of elements. -/
theorem zero_add_sum_ones {ι : Type*} (S : Finset ι) :
    (0 : EReal) + ∑ _j ∈ S, (1 : EReal) = ((S.card : ℝ) : EReal) := by
  rw [zero_add, Finset.sum_const, nsmul_one]

/-- A scatter-add of ones into zeros holds, at every entry, a natural number: the number of updates that land there. -/
theorem count_nat {s si su : Shape} (d : ScatterDims s si su) {w : Nat} (idx : IVec si w) (i : s.Idx) :
    ∃ n : ℕ, Ideal.hostScatterAdd d (fun _ => (0 : EReal)) idx (fun _ => (1 : EReal)) i = ((n : ℝ) : EReal) := by
  unfold Ideal.hostScatterAdd
  exact ⟨_, zero_add_sum_ones _⟩

/-! ## Multiplying by the reciprocal of a count is dividing by it -/

/-- For a natural number `n`, the larger of `n` and one is a nonzero real number, so on every extended real `a` the
    product with its reciprocal is the quotient by it. -/
theorem mul_recip_eq_div (a : EReal) (n : ℕ) :
    a * Ideal.div 1 (max ((n : ℝ) : EReal) 1) = Ideal.div a (max ((n : ℝ) : EReal) 1) := by
  have hmax : max ((n : ℝ) : EReal) 1 = ((max (n : ℝ) 1 : ℝ) : EReal) := by
    rw [← EReal.coe_one]
    exact (EReal.coe_strictMono.monotone.map_max (a := (n : ℝ)) (b := 1)).symm
  have hne : (max (n : ℝ) 1 : ℝ) ≠ 0 := by
    have : (1 : ℝ) ≤ max (n : ℝ) 1 := le_max_right _ _
    exact ne_of_gt (lt_of_lt_of_le one_pos this)
  rw [hmax, Ideal.div_coe hne, Ideal.div_coe hne, one_mul]

end Cert.LibDegree

end
-- ==== Proof.Degree.lean ====
/-
  Dividing by the number of incoming edges, the two ways.

  The kernel counts the edges that arrive at each node once, as a flat scatter-add of ones, and multiplies every
  neighbour sum by `1 / max (count, 1)`; the reference counts them in every layer, as a column scatter-add of ones, and
  divides the sum by `max (count, 1)`.  The two counts are the same natural number at every node (the same edges land
  there), so `max (count, 1)` is a nonzero real number, and on the extended reals the product with its reciprocal is the
  quotient by it, whatever the sum is.  Hence, for any array `S` of 64 or of 128 columns,
      S / (the reference's column, broadcast)  =  S · (the kernel's reciprocal column, broadcast)
  entry by entry.
-/
import proofs.«180650_j13683765805695_1_alg».proof.Proof.HostChain
import proofs.«180650_j13683765805695_1_alg».proof.Proof.RefRead
import proofs.«180650_j13683765805695_1_alg».proof.Proof.LibDegree
import proofs.«180650_j13683765805695_1_alg».proof.Proof.LibSegment
import proofs.«180650_j13683765805695_1_alg».proof.Proof.LibRowReduce

noncomputable section

namespace Cert.Degree

open Idealize.ShloMosaic Idealize.ShloMosaic.ValueIdx
open Cert.KernelIdeal.Chain
open Cert.ReferenceIdeal.ReadP

/-- The edge array's contents: two rows of 1600000 node numbers. -/
abbrev Edges : Type := (⟨Cert.KernelIdeal.S2x1600000, .i32⟩ : BufTy).Contents (Elt Ideal)

/-- The float word of one denotes the real number one. -/
theorem ofBits_one : Ideal.ofBits .f32 0x3F800000#32 = 1 := by
  simp [Ideal.ofBits, Ideal.ieee, -EReal.coe_mul]; norm_num

/-- The number of edges arriving at node `n`, as the kernel counts it. -/
def cnt (e : Edges) (n : Fin 100000) : EReal := Cert.KernelIdeal.Chain.count (F := Ideal) e (ix1 n)

theorem zerosN (h : Cert.KernelIdeal.S_.BroadcastsInDim Cert.KernelIdeal.S100000 (![] : Fin 0 → Fin Cert.KernelIdeal.S100000.rank)) :
    (broadcastInDim Cert.KernelIdeal.S100000 ![] h
      (constant (F := Ideal) Cert.KernelIdeal.S_ .f32 0x00000000#32)) = fun _ => (0 : EReal) :=
  funext fun _ => Ideal.ofBits_zero_f32

theorem onesE (h : Cert.KernelIdeal.S_.BroadcastsInDim Cert.KernelIdeal.S1600000 (![] : Fin 0 → Fin Cert.KernelIdeal.S1600000.rank)) :
    (broadcastInDim Cert.KernelIdeal.S1600000 ![] h
      (constant (F := Ideal) Cert.KernelIdeal.S_ .f32 0x3F800000#32)) = fun _ => (1 : EReal) :=
  funext fun _ => ofBits_one

theorem zerosN1 : val_main_v15 (F := Ideal) = fun _ => (0 : EReal) :=
  funext fun _ => Ideal.ofBits_zero_f32

theorem onesE1 : val_main_v14 (F := Ideal) = fun _ => (1 : EReal) :=
  funext fun _ => ofBits_one

/-- The kernel's count as a function: the exact scatter-add of constant ones into constant zeros. -/
theorem count_fn (e : Edges) :
    Cert.KernelIdeal.Chain.count (F := Ideal) e
      = Ideal.hostScatterAdd Cert.KernelIdeal.scatter_S100000_S1600000x1_S1600000_n_0_0_1 (fun _ => (0 : EReal)) (dstCol (F := Ideal) e) (fun _ => (1 : EReal)) :=
  (Ideal.hostScatterAdd_def Cert.KernelIdeal.scatter_S100000_S1600000x1_S1600000_n_0_0_1 .single _ (dstCol (F := Ideal) e) _).trans
    ((congrArg (fun z => Ideal.hostScatterAdd Cert.KernelIdeal.scatter_S100000_S1600000x1_S1600000_n_0_0_1 z (dstCol (F := Ideal) e) _) (zerosN _)).trans
      (congrArg (fun u => Ideal.hostScatterAdd Cert.KernelIdeal.scatter_S100000_S1600000x1_S1600000_n_0_0_1 (fun _ => (0 : EReal)) (dstCol (F := Ideal) e) u) (onesE _)))

/-- The reference's column of destinations is the kernel's. -/
theorem v16_eq (e : Edges) : val_main_v16 (F := Ideal) e = dstCol (F := Ideal) e := rfl

/-- The reference's column count as a function, likewise. -/
theorem refcount_fn (e : Edges) :
    val_main_v17 (F := Ideal) e
      = Ideal.hostScatterAdd Cert.ReferenceIdeal.scatter_S100000x1_S1600000x1_S1600000x1_1_0_0_1 (fun _ => (0 : EReal)) (dstCol (F := Ideal) e) (fun _ => (1 : EReal)) :=
  (Ideal.hostScatterAdd_def Cert.ReferenceIdeal.scatter_S100000x1_S1600000x1_S1600000x1_1_0_0_1 .single _ (val_main_v16 (F := Ideal) e) _).trans
    ((congrArg (fun z => Ideal.hostScatterAdd Cert.ReferenceIdeal.scatter_S100000x1_S1600000x1_S1600000x1_1_0_0_1 z (val_main_v16 (F := Ideal) e) _) zerosN1).trans
      ((congrArg (fun u => Ideal.hostScatterAdd Cert.ReferenceIdeal.scatter_S100000x1_S1600000x1_S1600000x1_1_0_0_1 (fun _ => (0 : EReal)) (val_main_v16 (F := Ideal) e) u) onesE1).trans
        (congrArg (fun ix => Ideal.hostScatterAdd Cert.ReferenceIdeal.scatter_S100000x1_S1600000x1_S1600000x1_1_0_0_1 (fun _ => (0 : EReal)) ix (fun _ => (1 : EReal))) (v16_eq e))))

theorem cnt_eq (e : Edges) (n : Fin 100000) :
    cnt e n = Ideal.hostScatterAdd Cert.KernelIdeal.scatter_S100000_S1600000x1_S1600000_n_0_0_1 (fun _ => (0 : EReal)) (dstCol (F := Ideal) e) (fun _ => (1 : EReal)) (ix1 n) :=
  congrFun (count_fn e) (ix1 n)

/-- The count is a natural number. -/
theorem cnt_nat (e : Edges) (n : Fin 100000) : ∃ k : ℕ, cnt e n = ((k : ℝ) : EReal) := by
  obtain ⟨k, hk⟩ := Cert.LibDegree.count_nat Cert.KernelIdeal.scatter_S100000_S1600000x1_S1600000_n_0_0_1 (dstCol (F := Ideal) e) (ix1 n)
  exact ⟨k, (cnt_eq e n).trans hk⟩

/-- The kernel's flat count at node `n` is the reference's column count at `(n, 0)`. -/
theorem flat_col (e : Edges) (n : Fin 100000) : cnt e n = val_main_v17 (F := Ideal) e (ix2 n (0 : Fin 1)) :=
  (cnt_eq e n).trans
    ((Cert.LibDegree.flat_eq_column Cert.KernelIdeal.scatter_S100000_S1600000x1_S1600000_n_0_0_1.wf Cert.ReferenceIdeal.scatter_S100000x1_S1600000x1_S1600000x1_1_0_0_1.wf (dstCol (F := Ideal) e) 0 1 n).trans
      (congrFun (refcount_fn e) (ix2 n (0 : Fin 1))).symm)

/-- The constant array of ones over the nodes. -/
theorem onesN (h : Cert.KernelIdeal.S_.BroadcastsInDim Cert.KernelIdeal.S100000 (![] : Fin 0 → Fin Cert.KernelIdeal.S100000.rank)) :
    (broadcastInDim Cert.KernelIdeal.S100000 ![] h
      (constant (F := Ideal) Cert.KernelIdeal.S_ .f32 0x3F800000#32)) = fun _ => (1 : EReal) :=
  funext fun _ => ofBits_one

theorem onesN1 : val_main_v18 (F := Ideal) = fun _ => (1 : EReal) :=
  funext fun _ => ofBits_one

/-- A host quotient and a maximum of arrays, at an index (over variables: nothing here can unfold). -/
theorem hostDivf_apply {s : Shape} (a b : FVec Ideal s .f32) (i : s.Idx) :
    Host.divf (F := Ideal) a b i = Ideal.div (a i) (b i) := rfl
theorem maxf_apply {s : Shape} (a b : FVec Ideal s .f32) (i : s.Idx) :
    maximumf (F := Ideal) a b i = max (a i) (b i) := rfl

/-- The kernel's reciprocal column at node `n`. -/
theorem recip_entry (e : Edges) (n : Fin 100000) :
    recip (F := Ideal) e (ix2 n (0 : Fin 1)) = Ideal.div 1 (max (cnt e n) 1) := by
  refine (Cert.LibRowReduce.shapeCast_a_a1_apply _ _ n 0).trans ?_
  rw [hostDivf_apply, maxf_apply, onesN]
  rfl

/-- The reference's `max (count, 1)` column at node `n`. -/
theorem refdeg_entry (e : Edges) (n : Fin 100000) :
    val_main_v19 (F := Ideal) e (ix2 n (0 : Fin 1)) = max (cnt e n) 1 := by
  rw [flat_col]
  unfold val_main_v19
  rw [maxf_apply, onesN1]

/-- At a node: the product with the kernel's reciprocal is the quotient by the reference's `max (count, 1)`. -/
theorem scale (e : Edges) (a : EReal) (n : Fin 100000) :
    a * recip (F := Ideal) e (ix2 n (0 : Fin 1)) = Ideal.div a (val_main_v19 (F := Ideal) e (ix2 n (0 : Fin 1))) := by
  rw [recip_entry, refdeg_entry]
  obtain ⟨k, hk⟩ := cnt_nat e n
  rw [hk]
  exact Cert.LibDegree.mul_recip_eq_div a k

/-- The reference recomputes the same column in its second and third layers. -/
theorem v44_eq (e : Edges) : val_main_v44 (F := Ideal) e = val_main_v19 (F := Ideal) e := rfl
theorem v69_eq (e : Edges) : val_main_v69 (F := Ideal) e = val_main_v19 (F := Ideal) e := rfl

/-- For an array of 64 columns: the quotient by the broadcast `max (count, 1)` column is the product with the broadcast
    reciprocal column. -/
theorem div_eq_mul64 (e : Edges) (S : Cert.KernelIdeal.S100000x64.Idx → EReal)
    (hR hK : Cert.KernelIdeal.S100000x1.BroadcastsInDim Cert.KernelIdeal.S100000x64 (![0, 1] : Fin 2 → Fin 2)) :
    Host.divf (F := Ideal) (φ := .f32) S (broadcastInDim Cert.KernelIdeal.S100000x64 ![0, 1] hR (val_main_v19 (F := Ideal) e))
      = mulf S (broadcastInDim Cert.KernelIdeal.S100000x64 ![0, 1] hK (recip (F := Ideal) e)) := by
  funext j
  obtain ⟨n, k, rfl⟩ : ∃ (n : Fin 100000) (k : Fin 64), j = ix2 n k := ⟨j 0, j 1, eq_ix2 j⟩
  rw [hostDivf_apply, mulf_apply, Cert.LibSegment.rowBroadcast_apply, Cert.LibSegment.rowBroadcast_apply]
  exact (scale e _ n).symm

/-- The same for an array of 128 columns. -/
theorem div_eq_mul128 (e : Edges) (S : Cert.KernelIdeal.S100000x128.Idx → EReal)
    (hR hK : Cert.KernelIdeal.S100000x1.BroadcastsInDim Cert.KernelIdeal.S100000x128 (![0, 1] : Fin 2 → Fin 2)) :
    Host.divf (F := Ideal) (φ := .f32) S (broadcastInDim Cert.KernelIdeal.S100000x128 ![0, 1] hR (val_main_v19 (F := Ideal) e))
      = mulf S (broadcastInDim Cert.KernelIdeal.S100000x128 ![0, 1] hK (recip (F := Ideal) e)) := by
  funext j
  obtain ⟨n, k, rfl⟩ : ∃ (n : Fin 100000) (k : Fin 128), j = ix2 n k := ⟨j 0, j 1, eq_ix2 j⟩
  rw [hostDivf_apply, mulf_apply, Cert.LibSegment.rowBroadcast_apply, Cert.LibSegment.rowBroadcast_apply]
  exact (scale e _ n).symm

end Cert.Degree

end
-- ==== Proof.LibHostRow.lean ====
/-
  Host operations along a row, read at an index at the ideal instance (floats are extended reals, every operation
  exact), free of any program.

    * a host float sum of a `[m, n]` array over its second axis, at row `p`: the initial value plus the sum over the
      `n` columns of that row;
    * a vector `[b]` broadcast to one row `[1, b]`, and one row `[1, b]` broadcast over `a` rows to `[a, b]`: entry
      `(·, q)` of either is entry `q` of the vector, or `(0, q)` of the row.
-/
import Idealize.ShloMosaic.Lib.ValueIdx
import Idealize.ShloMosaic.Lib.Pipeline.Value
import Idealize.ShloMosaic.PureOps.Ideal.Laws
import Idealize.ShloMosaic.PureOps.Reduce
import proofs.«180650_j13683765805695_1_alg».proof.Proof.LibRowReduce

noncomputable section

open scoped BigOperators

namespace Cert.LibHostRow

open Idealize.ShloMosaic Idealize.ShloMosaic.ValueIdx

variable {m n : Nat}

/-- The host's float sum over a row: the initial value plus the sum over the row's columns. -/
theorem hostRowSum_apply (x : FVec Ideal ⟨2, ![m, n]⟩ .f32) (init : (⟨0, ![]⟩ : Shape).Idx → EReal)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (p : Fin m) :
    Host.reduceAdd (F := Ideal) (φ := .f32) x init h' hu (ix1 p)
      = init (Shape.Idx.first hu) + ∑ k : Fin n, x (ix2 p k) := by
  simp only [Host.reduceAdd, Ideal.hostReduceAdd_def]
  rw [Ideal.hostReduceAdd_single h' h]
  exact congrArg (_ + ·) (Finset.sum_congr rfl fun k _ => congrArg x (Cert.LibRowReduce.lift_row h p k))

variable {α : Type} {a b : Nat}

/-- A vector `[b]` broadcast to the one row `[1, b]`, read at `(u, q)`: the vector's entry `q`. -/
theorem vecToRow_apply (h : (⟨1, ![b]⟩ : Shape).BroadcastsInDim ⟨2, ![1, b]⟩ (![1] : Fin 1 → Fin 2))
    (x : (⟨1, ![b]⟩ : Shape).Idx → α) (u : Fin 1) (q : Fin b) :
    broadcastInDim ⟨2, ![1, b]⟩ ![1] h x (ix2 u q) = x (ix1 q) := by
  refine broadcastInDim_apply _ h x _ _ ?_
  intro d
  obtain rfl : d = 0 := Subsingleton.elim _ _
  show q.val = if b = 1 then 0 else q.val
  have := q.isLt
  split <;> omega

/-- One row `[1, b]` broadcast over `a` rows to `[a, b]`, read at `(p, q)`: the row's entry `(0, q)`. -/
theorem rowToRows_apply (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x _ _ ?_
  intro d
  match d with
  | ⟨0, _⟩ => rfl
  | ⟨1, _⟩ =>
    show q.val = if b = 1 then 0 else q.val
    have := q.isLt
    split <;> omega

end Cert.LibHostRow

end
-- ==== Proof.Bridge.lean ====
/-
  The reference computes what the kernel computes.

  Layer by layer the reference is
      relu ( (S / d) · Wl  +  bias  +  h · Wr )         (no rectifier in the last layer; a log-softmax after it)
  where `S` is the sum of the neighbours' rows, `d = max (count, 1)` the broadcast column of incoming-edge counts, and
  the products are host `dot_general`s.  The kernel has `S · (1 / d)` for `S / d` (the same array, by the counting lemmas),
  adds the three terms in another order (addition of extended reals is commutative and associative), and takes its
  products on the matrix unit; at the ideal values each product is the same plain sum.  So each reference layer is the
  kernel's layer function of the same arrays, and the three compose to the kernel's result.  The reference's
  log-softmax folds the row maximum from −∞ and then takes the maximum with −∞ once more, which changes nothing.
-/
import proofs.«180650_j13683765805695_1_alg».proof.Proof.Degree
import proofs.«180650_j13683765805695_1_alg».proof.Proof.LibHostRow
import Idealize.ShloMosaic.Lib.ValueLayout

noncomputable section

open scoped BigOperators

namespace Cert.Bridge

open Idealize.ShloMosaic Idealize.ShloMosaic.ValueIdx
open Cert.ReferenceIdeal Cert.ReferenceIdeal.Gen Cert.ReferenceIdeal.ReadP
open Cert.KernelIdeal.Chain
open Cert.KernelIdeal (Layer0.whole Layer0.entry Layer0.row Layer0.col Layer1.whole Layer1.entry Layer1.row Layer1.col
  Layer2.whole Layer2.pre Layer2.row Layer2.col Layer2.logSoftmax Layer2.rowMax)

/-! ## Small readings over variables -/

theorem zerosAt {t : Shape} (h : (⟨0, ![]⟩ : Shape).BroadcastsInDim t (![] : Fin 0 → Fin t.rank)) (i : t.Idx) :
    broadcastInDim t ![] h (constant (F := Ideal) ⟨0, ![]⟩ .f32 0x00000000#32) i = Ideal.ofBits .f32 0x00000000#32 := rfl

theorem negInfAt {t : Shape} (h : (⟨0, ![]⟩ : Shape).BroadcastsInDim t (![] : Fin 0 → Fin t.rank)) (i : t.Idx) :
    broadcastInDim t ![] h (constant (F := Ideal) ⟨0, ![]⟩ .f32 0xFF800000#32) i = Ideal.ofBits .f32 0xFF800000#32 := rfl

theorem hostExp_apply {s : Shape} (a : FVec Ideal s .f32) (i : s.Idx) : Host.exp (F := Ideal) a i = Ideal.exp (a i) := rfl
theorem hostLog_apply {s : Shape} (a : FVec Ideal s .f32) (i : s.Idx) : Host.log (F := Ideal) a i = Ideal.log (a i) := rfl

theorem dot0_apply (l : FVec Ideal S100000x64 .f32) (r : FVec Ideal S64x64 .f32) (n : Fin 100000) (q : Fin 64) :
    Host.dotGeneral (F := Ideal) dot_S100000x64_S64x64_S100000x64_1_0_0_1_n_n none l r (ix2 n q)
      = ∑ k : Fin 64, l (ix2 n k) * r (ix2 k q) :=
  Cert.LibPlainDot.dotGeneral_plain_apply none .single l r n q

theorem dot1_apply (l : FVec Ideal S100000x64 .f32) (r : FVec Ideal S64x128 .f32) (n : Fin 100000) (q : Fin 128) :
    Host.dotGeneral (F := Ideal) dot_S100000x64_S64x128_S100000x128_1_0_0_1_n_n none l r (ix2 n q)
      = ∑ k : Fin 64, l (ix2 n k) * r (ix2 k q) :=
  Cert.LibPlainDot.dotGeneral_plain_apply none .single l r n q

theorem dot2_apply (l : FVec Ideal S100000x128 .f32) (r : FVec Ideal S128x40 .f32) (n : Fin 100000) (q : Fin 40) :
    Host.dotGeneral (F := Ideal) dot_S100000x128_S128x40_S100000x40_1_0_0_1_n_n none l r (ix2 n q)
      = ∑ k : Fin 128, l (ix2 n k) * r (ix2 k q) :=
  Cert.LibPlainDot.dotGeneral_plain_apply none .single l r n q

theorem bias64_apply (b : FVec Ideal S64 .f32) (q : Fin 64) : biasRow64 (F := Ideal) b (ix2 (0 : Fin 1) q) = b (ix1 q) :=
  shapeCast_a_1a_apply b _ 0 q
theorem bias128_apply (b : FVec Ideal S128 .f32) (q : Fin 128) : biasRow128 (F := Ideal) b (ix2 (0 : Fin 1) q) = b (ix1 q) :=
  shapeCast_a_1a_apply b _ 0 q
theorem bias40_apply (b : FVec Ideal S40 .f32) (q : Fin 40) : biasRow40 (F := Ideal) b (ix2 (0 : Fin 1) q) = b (ix1 q) :=
  shapeCast_a_1a_apply b _ 0 q

/-! ## A reference layer is the kernel's layer function of the same arrays -/

/-- First layer's shapes: `relu ((Agg · Wl + bias) + H · Wr)` is the kernel's `relu ((Agg · Wl + H · Wr) + bias)`. -/
theorem ref_layer0 (Agg H : FVec Ideal S100000x64 .f32) (Wl Wr : FVec Ideal S64x64 .f32) (b : FVec Ideal S64 .f32) :
    maximumf (F := Ideal)
      (addf (addf (Host.dotGeneral (F := Ideal) dot_S100000x64_S64x64_S100000x64_1_0_0_1_n_n none Agg Wl)
        (broadcastInDim S100000x64 ![0, 1] bcast_S1x64_S100000x64_0_1 (broadcastInDim S1x64 ![1] bcast_S64_S1x64_1 b)))
        (Host.dotGeneral (F := Ideal) dot_S100000x64_S64x64_S100000x64_1_0_0_1_n_n none H Wr))
      (broadcastInDim S100000x64 ![] bcast_S_S100000x64 (constant (F := Ideal) S_ .f32 0x00000000#32))
    = Layer0.whole Agg H Wl Wr (biasRow64 (F := Ideal) b) := by
  funext j
  obtain ⟨n, q, rfl⟩ : ∃ (n : Fin 100000) (q : Fin 64), j = ix2 n q := ⟨j 0, j 1, eq_ix2 j⟩
  rw [maximumf_apply, addf_apply, addf_apply, dot0_apply, dot0_apply, Cert.LibHostRow.rowToRows_apply,
    Cert.LibHostRow.vecToRow_apply, zerosAt]
  unfold Layer0.whole Layer0.entry
  rw [show Layer0.row (ix2 n q) = n from rfl, show Layer0.col (ix2 n q) = q from rfl, bias64_apply, add_right_comm]

/-- Second layer's shapes. -/
theorem ref_layer1 (Agg H : FVec Ideal S100000x64 .f32) (Wl Wr : FVec Ideal S64x128 .f32) (b : FVec Ideal S128 .f32) :
    maximumf (F := Ideal)
      (addf (addf (Host.dotGeneral (F := Ideal) dot_S100000x64_S64x128_S100000x128_1_0_0_1_n_n none Agg Wl)
        (broadcastInDim S100000x128 ![0, 1] bcast_S1x128_S100000x128_0_1 (broadcastInDim S1x128 ![1] bcast_S128_S1x128_1 b)))
        (Host.dotGeneral (F := Ideal) dot_S100000x64_S64x128_S100000x128_1_0_0_1_n_n none H Wr))
      (broadcastInDim S100000x128 ![] bcast_S_S100000x128 (constant (F := Ideal) S_ .f32 0x00000000#32))
    = Layer1.whole Agg H Wl Wr (biasRow128 (F := Ideal) b) := by
  funext j
  obtain ⟨n, q, rfl⟩ : ∃ (n : Fin 100000) (q : Fin 128), j = ix2 n q := ⟨j 0, j 1, eq_ix2 j⟩
  rw [maximumf_apply, addf_apply, addf_apply, dot1_apply, dot1_apply, Cert.LibHostRow.rowToRows_apply,
    Cert.LibHostRow.vecToRow_apply, zerosAt]
  unfold Layer1.whole Layer1.entry
  rw [show Layer1.row (ix2 n q) = n from rfl, show Layer1.col (ix2 n q) = q from rfl, bias128_apply, add_right_comm]

/-- Third layer's shapes, before the log-softmax: entry `(n, q)` is the kernel's `pre`. -/
theorem ref_pre2 (Agg H : FVec Ideal S100000x128 .f32) (Wl Wr : FVec Ideal S128x40 .f32) (b : FVec Ideal S40 .f32)
    (n : Fin 100000) (q : Fin 40) :
    addf (F := Ideal) (addf (Host.dotGeneral (F := Ideal) dot_S100000x128_S128x40_S100000x40_1_0_0_1_n_n none Agg Wl)
        (broadcastInDim S100000x40 ![0, 1] bcast_S1x40_S100000x40_0_1 (broadcastInDim S1x40 ![1] bcast_S40_S1x40_1 b)))
        (Host.dotGeneral (F := Ideal) dot_S100000x128_S128x40_S100000x40_1_0_0_1_n_n none H Wr) (ix2 n q)
    = Layer2.pre Agg H Wl Wr (biasRow40 (F := Ideal) b) n q := by
  rw [addf_apply, addf_apply, dot2_apply, dot2_apply, Cert.LibHostRow.rowToRows_apply, Cert.LibHostRow.vecToRow_apply]
  unfold Layer2.pre
  rw [bias40_apply, add_right_comm]

/-! ## The reference's log-softmax along a row -/

/-- The reference's row maximum, put back over the row: `max (−∞, reduce-max from −∞)`, broadcast twice. -/
def refMaxB (P : FVec Ideal S100000x40 .f32) : FVec Ideal S100000x40 .f32 :=
  broadcastInDim S100000x40 ![0, 1] bcast_S100000x1_S100000x40_0_1
    (broadcastInDim S100000x1 ![0] bcast_S100000_S100000x1_0
      (maximumf (F := Ideal) (broadcastInDim S100000 ![] bcast_S_S100000 (constant (F := Ideal) S_ .f32 0xFF800000#32))
        (Host.reduce FloatOps.maximumf P (constant (F := Ideal) S_ .f32 0xFF800000#32) reducesTo_S100000x40_S100000_d1 h_S_)))

/-- The reference's logarithm of the row sums of exponentials, put back over the row. -/
def refLogSumB (Z : FVec Ideal S100000x40 .f32) : FVec Ideal S100000x40 .f32 :=
  broadcastInDim S100000x40 ![0, 1] bcast_S100000x1_S100000x40_0_1
    (Host.log (F := Ideal) (broadcastInDim S100000x1 ![0] bcast_S100000_S100000x1_0
      (Host.reduceAdd (F := Ideal) (Host.exp (F := Ideal) Z) (constant (F := Ideal) S_ .f32 0x00000000#32)
        reducesTo_S100000x40_S100000_d1 h_S_)))

/-- The reference's log-softmax of an array `P`. -/
def refTail (P : FVec Ideal S100000x40 .f32) : FVec Ideal S100000x40 .f32 :=
  subf (F := Ideal) (subf (F := Ideal) P (refMaxB P)) (refLogSumB (subf (F := Ideal) P (refMaxB P)))

theorem refMaxB_apply (P : FVec Ideal S100000x40 .f32) (n : Fin 100000) (q : Fin 40) :
    refMaxB P (ix2 n q) = Layer2.rowMax (fun k => P (ix2 n k)) := by
  unfold refMaxB
  rw [Cert.LibSegment.rowBroadcast_apply, Cert.LibSegment.colBroadcast_apply, maximumf_apply, negInfAt,
    Cert.LibRowReduce.hostRowMax_apply P _ reducesTo_S100000x40_S100000_d1 (by decide) h_S_ n]
  exact Cert.LibRowReduce.max_fold_max _ _ _

theorem refLogSumB_apply (Z : FVec Ideal S100000x40 .f32) (n : Fin 100000) (q : Fin 40) :
    refLogSumB Z (ix2 n q) = Ideal.log (∑ k : Fin 40, Ideal.exp (Z (ix2 n k))) := by
  unfold refLogSumB
  rw [Cert.LibSegment.rowBroadcast_apply, hostLog_apply, Cert.LibSegment.colBroadcast_apply,
    Cert.LibHostRow.hostRowSum_apply (Host.exp (F := Ideal) Z) _ reducesTo_S100000x40_S100000_d1 (by decide) h_S_ n]
  refine congrArg Ideal.log ?_
  show Ideal.ofBits .f32 0x00000000#32 + _ = _
  rw [Ideal.ofBits_zero_f32, zero_add]
  exact Finset.sum_congr rfl fun k _ => hostExp_apply Z (ix2 n k)

/-- The reference's log-softmax at `(n, q)`: the kernel's row function of row `n`. -/
theorem refTail_apply (P : FVec Ideal S100000x40 .f32) (n : Fin 100000) (q : Fin 40) :
    refTail P (ix2 n q) = Layer2.logSoftmax (fun k => P (ix2 n k)) q := by
  have hz : ∀ k : Fin 40, subf (F := Ideal) P (refMaxB P) (ix2 n k) = P (ix2 n k) - Layer2.rowMax (fun k' => P (ix2 n k')) :=
    fun k => by rw [subf_apply, refMaxB_apply]
  unfold refTail Layer2.logSoftmax
  rw [subf_apply, refLogSumB_apply, hz]
  simp only [hz]

/-! ## The reference's stages, layer by layer -/

section Stages

variable (x : FVec Ideal S100000x64 .f32) (e : Cert.Degree.Edges)
  (wl0 : FVec Ideal S64x64 .f32) (b0 : FVec Ideal S64 .f32) (wr0 : FVec Ideal S64x64 .f32)
  (wl1 : FVec Ideal S64x128 .f32) (b1 : FVec Ideal S128 .f32) (wr1 : FVec Ideal S64x128 .f32)
  (wl2 : FVec Ideal S128x40 .f32) (b2 : FVec Ideal S40 .f32) (wr2 : FVec Ideal S128x40 .f32)

/-- First layer: the reference's mean over incoming edges is the kernel's. -/
theorem mean0_eq : val_main_v21 (F := Ideal) x e = agg64 (F := Ideal) e x :=
  Cert.Degree.div_eq_mul64 e (sum64 (F := Ideal) e x) _ _

/-- The reference's first hidden array is the kernel's. -/
theorem v28_eq : val_main_v28 (F := Ideal) x e wl0 b0 wr0 = h1 x e wl0 b0 wr0 :=
  (ref_layer0 (val_main_v21 (F := Ideal) x e) x wl0 wr0 b0).trans
    (congrArg (fun A => Layer0.whole A x wl0 wr0 (biasRow64 (F := Ideal) b0)) (mean0_eq x e))

/-- Second layer: the mean of the first hidden array. -/
theorem mean1_eq : val_main_v46 (F := Ideal) x e wl0 b0 wr0 = agg64 (F := Ideal) e (h1 x e wl0 b0 wr0) :=
  (Cert.Degree.div_eq_mul64 e (sum64 (F := Ideal) e (val_main_v28 (F := Ideal) x e wl0 b0 wr0)) _ _).trans
    (congrArg (fun H => agg64 (F := Ideal) e H) (v28_eq x e wl0 b0 wr0))

/-- The reference's second hidden array is the kernel's. -/
theorem v53_eq : val_main_v53 (F := Ideal) x e wl0 b0 wr0 wl1 b1 wr1 = h2 x e wl0 b0 wr0 wl1 b1 wr1 :=
  (ref_layer1 (val_main_v46 (F := Ideal) x e wl0 b0 wr0) (val_main_v28 (F := Ideal) x e wl0 b0 wr0) wl1 wr1 b1).trans
    ((congrArg (fun A => Layer1.whole A (val_main_v28 (F := Ideal) x e wl0 b0 wr0) wl1 wr1 (biasRow128 (F := Ideal) b1)) (mean1_eq x e wl0 b0 wr0)).trans
      (congrArg (fun H => Layer1.whole (agg64 (F := Ideal) e (h1 x e wl0 b0 wr0)) H wl1 wr1 (biasRow128 (F := Ideal) b1))
        (v28_eq x e wl0 b0 wr0)))

/-- Third layer: the mean of the second hidden array. -/
theorem mean2_eq : val_main_v71 (F := Ideal) x e wl0 b0 wr0 wl1 b1 wr1 = agg128 (F := Ideal) e (h2 x e wl0 b0 wr0 wl1 b1 wr1) :=
  (Cert.Degree.div_eq_mul128 e (sum128 (F := Ideal) e (val_main_v53 (F := Ideal) x e wl0 b0 wr0 wl1 b1 wr1)) _ _).trans
    (congrArg (fun H => agg128 (F := Ideal) e H) (v53_eq x e wl0 b0 wr0 wl1 b1 wr1))

/-- The reference's third layer before its log-softmax, as its three operations of the two arrays it reads. -/
theorem v77_fn : val_main_v77 (F := Ideal) x e wl0 b0 wr0 wl1 b1 wr1 wl2 b2 wr2
    = addf (F := Ideal) (addf (Host.dotGeneral (F := Ideal) (φ₁ := .f32) (φ₂ := .f32) dot_S100000x128_S128x40_S100000x40_1_0_0_1_n_n none
          (val_main_v71 (F := Ideal) x e wl0 b0 wr0 wl1 b1 wr1) wl2)
        (broadcastInDim S100000x40 ![0, 1] bcast_S1x40_S100000x40_0_1 (broadcastInDim S1x40 ![1] bcast_S40_S1x40_1 b2)))
        (Host.dotGeneral (F := Ideal) (φ₁ := .f32) (φ₂ := .f32) dot_S100000x128_S128x40_S100000x40_1_0_0_1_n_n none (val_main_v53 (F := Ideal) x e wl0 b0 wr0 wl1 b1 wr1) wr2) := rfl

/-- … and entry `(n, q)` of it is the kernel's `pre` of the kernel's arrays. -/
theorem v77_apply (n : Fin 100000) (q : Fin 40) :
    val_main_v77 (F := Ideal) x e wl0 b0 wr0 wl1 b1 wr1 wl2 b2 wr2 (ix2 n q)
      = Layer2.pre (agg128 (F := Ideal) e (h2 x e wl0 b0 wr0 wl1 b1 wr1)) (h2 x e wl0 b0 wr0 wl1 b1 wr1) wl2 wr2 (biasRow40 (F := Ideal) b2) n q :=
  (congrFun (v77_fn x e wl0 b0 wr0 wl1 b1 wr1 wl2 b2 wr2) (ix2 n q)).trans
    ((ref_pre2 (val_main_v71 (F := Ideal) x e wl0 b0 wr0 wl1 b1 wr1) (val_main_v53 (F := Ideal) x e wl0 b0 wr0 wl1 b1 wr1) wl2 wr2 b2 n q).trans
      ((congrArg (fun A => Layer2.pre A (val_main_v53 (F := Ideal) x e wl0 b0 wr0 wl1 b1 wr1) wl2 wr2 (biasRow40 (F := Ideal) b2) n q) (mean2_eq x e wl0 b0 wr0 wl1 b1 wr1)).trans
        (congrArg (fun H => Layer2.pre (agg128 (F := Ideal) e (h2 x e wl0 b0 wr0 wl1 b1 wr1)) H wl2 wr2 (biasRow40 (F := Ideal) b2) n q)
          (v53_eq x e wl0 b0 wr0 wl1 b1 wr1))))

/-- The reference's result is its log-softmax of that array. -/
theorem v78_fn : val_main_v78 (F := Ideal) x e wl0 b0 wr0 wl1 b1 wr1 wl2 b2 wr2 = refTail (val_main_v77 (F := Ideal) x e wl0 b0 wr0 wl1 b1 wr1 wl2 b2 wr2) := rfl

/-- The kernel's third layer at `(n, q)`, over variables. -/
theorem whole2_apply (A H : FVec Ideal S100000x128 .f32) (Wl Wr : FVec Ideal S128x40 .f32) (B : FVec Ideal S1x40 .f32)
    (n : Fin 100000) (q : Fin 40) :
    Layer2.whole A H Wl Wr B (ix2 n q) = Layer2.logSoftmax (fun k => Layer2.pre A H Wl Wr B n k) q := rfl

/-- THE BRIDGE: the reference's result is the kernel's, as functions of the eleven argument arrays. -/
theorem ref_eq_out : val_main_v78 (F := Ideal) x e wl0 b0 wr0 wl1 b1 wr1 wl2 b2 wr2 = out x e wl0 b0 wr0 wl1 b1 wr1 wl2 b2 wr2 := by
  funext j
  obtain ⟨n, q, rfl⟩ : ∃ (n : Fin 100000) (q : Fin 40), j = ix2 n q := ⟨j 0, j 1, eq_ix2 j⟩
  rw [v78_fn, refTail_apply]
  refine Eq.trans ?_ (whole2_apply (agg128 (F := Ideal) e (h2 x e wl0 b0 wr0 wl1 b1 wr1)) (h2 x e wl0 b0 wr0 wl1 b1 wr1) wl2 wr2 (biasRow40 (F := Ideal) b2) n q).symm
  exact congrArg (fun f => Layer2.logSoftmax f q) (funext fun k => v77_apply x e wl0 b0 wr0 wl1 b1 wr1 wl2 b2 wr2 n k)

end Stages

end Cert.Bridge

end
-- ==== Proof.lean ====
/-
  Three mean-aggregation graph layers and a log-softmax: the tiled kernel against the plain reference, over the
  extended reals.

  Both programs take node features `x : [100000, 64]`, an edge array `[2, 1600000]` (sources, destinations) and three
  layers' parameters.  Per layer, each node's new row is
      (mean of the rows of its in-neighbours) · Wl  +  bias  +  (its own row) · Wr ,
  rectified after the first two layers; the last layer is followed by a log-softmax along each row.  The reference
  does this with host operations only.  The kernel keeps the gather and the scatter-add on the host and does the two
  products, the bias, the rectifier and the log-softmax in a tiled region per layer, 5000 rows at a time; it divides
  by the neighbour count by multiplying with its reciprocal, computed once; it rounds the products' operands to bf16,
  which is the identity at the ideal values.

  * The kernel's run ends with its result array at the three layers composed (`Chain.out`): each region leaves its
    layer's whole-array function of the arrays it found (Layer0, Layer1, Layer2: the 20 blocks of 5000 rows tile the
    100000 rows), and what each region finds is read back through the host operations to the launch memory (Walk).
  * The reference's run ends at its own composed term, which is stage by stage that same function: the sums over
    neighbours are the same host operations; the count as a column is the count as a flat array; `S / max(count, 1)`
    is `S · (1 / max(count, 1))` because the count is a natural number; a host `dot_general` and a matrix-unit product
    are the same sum of products; the three terms of a layer add up in either order; and the reference's extra
    `max` with −∞ in its log-softmax is the identity (Degree, Bridge).
  * The three frame claims: the two kernels' are their generated frames; the reference's is its run with the result
    forgotten.  The idealization rewrote nothing, so nothing is owed for it.
-/
import proofs.«180650_j13683765805695_1_alg».proof.Defs
import proofs.«180650_j13683765805695_1_alg».proof.Proof.Gen.Kernel
import proofs.«180650_j13683765805695_1_alg».proof.Proof.Gen.Kernel.Skeleton
import proofs.«180650_j13683765805695_1_alg».proof.Proof.Gen.Kernel.Launch
import proofs.«180650_j13683765805695_1_alg».proof.Proof.Gen.Kernel.Points
import proofs.«180650_j13683765805695_1_alg».proof.Proof.Gen.Kernel.Frame
import proofs.«180650_j13683765805695_1_alg».proof.Proof.Gen.KernelIdeal
import proofs.«180650_j13683765805695_1_alg».proof.Proof.Gen.KernelIdeal.Skeleton
import proofs.«180650_j13683765805695_1_alg».proof.Proof.Gen.KernelIdeal.Launch
import proofs.«180650_j13683765805695_1_alg».proof.Proof.Gen.KernelIdeal.Points
import proofs.«180650_j13683765805695_1_alg».proof.Proof.Gen.KernelIdeal.Frame
import proofs.«180650_j13683765805695_1_alg».proof.Proof.Gen.ReferenceIdeal
import proofs.«180650_j13683765805695_1_alg».proof.Proof.Gen.Pre_finite_inputs
import proofs.«180650_j13683765805695_1_alg».proof.Proof.KernelRun
import proofs.«180650_j13683765805695_1_alg».proof.Proof.Walk
import proofs.«180650_j13683765805695_1_alg».proof.Proof.RefRun
import proofs.«180650_j13683765805695_1_alg».proof.Proof.RefRead
import proofs.«180650_j13683765805695_1_alg».proof.Proof.Bridge
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments alone: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the eleven arguments both programs end with the same result: the three layers
    composed, of those arguments. -/
theorem algebraic : Cert.algebraic_KernelIdeal_ReferenceIdeal := by
  intro m ρ m' ρ' _ hagree
  refine ⟨fun c => Cert.KernelIdeal.Chain.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Walk.W6_out m ρ c), (h c).2⟩)
      (Cert.KernelIdeal.Named.run_named m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10⟩ := hagree c
    rw [Cert.ReferenceIdeal.ReadP.val_main_v78_eq, Cert.Bridge.ref_eq_out, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
